-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v234)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v234) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v49 : IVec S_ 1) (main_v51 : IVec S800000 32) : IVec S_ 1 :=
  let main_c_18 : IVec S_ 32 := constantI S_ 32 0#32
  let main_v52 : IVec S800000 32 := broadcastInDim S800000 ![] bcast_S_S800000 main_c_18
  let main_v53 : IVec S800000 1 := cmpi .sge main_v51 main_v52
  let main_c_19 : IVec S_ 1 := constantI S_ 1 1#1
  let main_v54 : IVec S_ 1 := (fun x v => Host.reduce IntOp.andi x v reducesTo_S800000_S_d0 h_S_) main_v53 main_c_19
  let main_v55 : IVec S_ 1 := andi main_v49 main_v54
  main_v55

def fn_part2 {F : FTy → Type} [FloatOps F] (main_arg1 : IVec S2x800000 32) (main_arg2 : IVec S2x800000 32) (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : IVec S1x800000 32 := (extractStridedSlice S1x800000 ![1, 0] · slices_S2x800000_S1x800000_1_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_c_17 : IVec S_ 1 := constantI S_ 1 1#1
  let main_v48 : IVec S_ 1 := (fun x v => Host.reduce IntOp.andi x v reducesTo_S800000_S_d0 h_S_) main_v47 main_c_17
  let main_v49 : IVec S_ 1 := andi main_v43 main_v48
  let main_v50 : IVec S1x800000 32 := (extractStridedSlice S1x800000 ![1, 0] · slices_S2x800000_S1x800000_1_0) main_arg2
  let main_v51 : IVec S800000 32 := shapeCast S800000 main_v50 shapeCasts_S1x800000_S800000
  fn_part3 (F := F) main_v49 main_v51

def fn_part1 {F : FTy → Type} [FloatOps F] (main_arg1 : IVec S2x800000 32) (main_arg2 : IVec S2x800000 32) (main_arg6 : FVec F S256 .f32) (main_arg7 : FVec F S256x128 .f32) (main_arg8 : FVec F S128 .f32) (main_arg9 : FVec F S256x128 .f32) (main_arg10 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_v33

def fn {F : FTy → Type} [FloatOps F] (main_arg0 : FVec F S50000x128 .f32) (main_arg1 : IVec S2x800000 32) (main_arg2 : IVec S2x800000 32) (main_arg3 : FVec F S128x256 .f32) (main_arg4 : FVec F S256 .f32) (main_arg5 : FVec F S128x256 .f32) (main_arg6 : FVec F S256 .f32) (main_arg7 : FVec F S256x128 .f32) (main_arg8 : FVec F S128 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg2 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S5000x128 : Shape := ⟨2, ![5000, 128]⟩
abbrev S5000x256 : Shape := ⟨2, ![5000, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 306
  | .vmem => 20
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S128x256, .f32⟩
  | 4 => ⟨S256, .f32⟩
  | 5 => ⟨S128x256, .f32⟩
  | 6 => ⟨S256, .f32⟩
  | 7 => ⟨S256x128, .f32⟩
  | 8 => ⟨S128, .f32⟩
  | 9 => ⟨S256x128, .f32⟩
  | 10 => ⟨S128, .f32⟩
  | 11 => ⟨S50000x256, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S800000x1, .f32⟩
  | 62 => ⟨S800000x256, .f32⟩
  | 63 => ⟨S800000x256, .f32⟩
  | 64 => ⟨S_, .f32⟩
  | 65 => ⟨S50000x256, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S50000x256, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S50000x256, .f32⟩
  | 87 => ⟨S1x800000, .i32⟩
  | 88 => ⟨S800000, .i32⟩
  | 89 => ⟨S1x800000, .i32⟩
  | 90 => ⟨S800000, .i32⟩
  | 91 => ⟨S_, .f32⟩
  | 92 => ⟨S800000, .f32⟩
  | 93 => ⟨S_, .f32⟩
  | 94 => ⟨S50000, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S50000, .f32⟩
  | 104 => ⟨S_, .f32⟩
  | 105 => ⟨S50000, .f32⟩
  | 106 => ⟨S50000, .f32⟩
  | 107 => ⟨S50000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S800000, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x256, .f32⟩
  | 8 => ⟨S800000x1, .f32⟩
  | 9 => ⟨S800000x256, .f32⟩
  | 10 => ⟨S800000x256, .f32⟩
  | 11 => ⟨S_, .f32⟩
  | 12 => ⟨S50000x256, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S50000x256, .f32⟩
  | 22 => ⟨S50000, .f32⟩
  | 23 => ⟨S50000x1, .f32⟩
  | 24 => ⟨S50000x256, .f32⟩
  | 25 => ⟨S50000x256, .f32⟩
  | 26 => ⟨S50000x256, .f32⟩
  | 27 => ⟨S1x256, .f32⟩
  | 28 => ⟨S50000x256, .f32⟩
  | 29 => ⟨S50000x256, .f32⟩
  | 30 => ⟨S_, .f32⟩
  | 31 => ⟨S50000x256, .f32⟩
  | 32 => ⟨S50000x256, .f32⟩
  | 33 => ⟨S50000x128, .f32⟩
  | 34 => ⟨S1x800000, .i32⟩
  | 35 => ⟨S800000, .i32⟩
  | 36 => ⟨S1x800000, .i32⟩
  | 37 => ⟨S800000, .i32⟩
  | 38 => ⟨S_, .f32⟩
  | 39 => ⟨S800000, .f32⟩
  | 40 => ⟨S_, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S50000, .f32⟩
  | 51 => ⟨S_, .f32⟩
  | 52 => ⟨S50000, .f32⟩
  | 53 => ⟨S50000, .f32⟩
  | 54 => ⟨S50000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000, .f32⟩
  | 73 => ⟨S800000, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x1, .f32⟩
  | 84 => ⟨S800000x128, .f32⟩
  | 85 => ⟨S800000x128, .f32⟩
  | 86 => ⟨S_, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S50000x128, .f32⟩
  | 97 => ⟨S50000, .f32⟩
  | 98 => ⟨S50000x1, .f32⟩
  | 99 => ⟨S50000x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S50000x128, .f32⟩
  | 106 => ⟨S1x800000, .i32⟩
  | 107 => ⟨S800000, .i32⟩
  | 108 => ⟨S1x800000, .i32⟩
  | 109 => ⟨S800000, .i32⟩
  | 110 => ⟨S_, .f32⟩
  | 111 => ⟨S800000, .f32⟩
  | 112 => ⟨S_, .f32⟩
  | 113 => ⟨S50000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S50000, .f32⟩
  | 123 => ⟨S_, .f32⟩
  | 124 => ⟨S50000, .f32⟩
  | 125 => ⟨S50000, .f32⟩
  | 126 => ⟨S50000, .f32⟩
  | 127 => ⟨S_, .i32⟩
  | _ => ⟨S50000x128, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S800000x1, .f32⟩
  | 28 => ⟨S800000x128, .f32⟩
  | 29 => ⟨S800000x128, .f32⟩
  | 30 => ⟨S_, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S50000x128, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call0_cst : Ref sig .tc := ⟨.hbm, 83, rfl⟩
abbrev main_call0_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_c_18 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_c_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_21 : Ref sig .tc := ⟨.hbm, 127, rfl⟩
abbrev main_v91 : Ref sig .tc := ⟨.hbm, 128, rfl⟩
abbrev main_v92 : Ref sig .tc := ⟨.hbm, 129, rfl⟩
abbrev main_c_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_c_24 : Ref sig .tc := ⟨.hbm, 141, rfl⟩
abbrev main_v102 : Ref sig .tc := ⟨.hbm, 142, rfl⟩
abbrev main_v103 : Ref sig .tc := ⟨.hbm, 143, rfl⟩
abbrev main_c_25 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_call1_cst : Ref sig .tc := ⟨.hbm, 158, rfl⟩
abbrev main_call1_v0 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_26 : Ref sig .tc := ⟨.hbm, 166, rfl⟩
abbrev main_v123 : Ref sig .tc := ⟨.hbm, 167, rfl⟩
abbrev main_cst_27 : Ref sig .tc := ⟨.hbm, 168, rfl⟩
abbrev main_v124 : Ref sig .tc := ⟨.hbm, 169, rfl⟩
abbrev main_c_28 : Ref sig .tc := ⟨.hbm, 170, rfl⟩
abbrev main_v125 : Ref sig .tc := ⟨.hbm, 171, rfl⟩
abbrev main_v126 : Ref sig .tc := ⟨.hbm, 172, rfl⟩
abbrev main_c_29 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_30 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_31 : Ref sig .tc := ⟨.hbm, 183, rfl⟩
abbrev main_v135 : Ref sig .tc := ⟨.hbm, 184, rfl⟩
abbrev main_v136 : Ref sig .tc := ⟨.hbm, 185, rfl⟩
abbrev main_c_32 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_33 : Ref sig .tc := ⟨.hbm, 192, rfl⟩
abbrev main_v142 : Ref sig .tc := ⟨.hbm, 193, rfl⟩
abbrev main_v143 : Ref sig .tc := ⟨.hbm, 194, rfl⟩
abbrev main_c_34 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_35 : Ref sig .tc := ⟨.hbm, 202, rfl⟩
abbrev main_v150 : Ref sig .tc := ⟨.hbm, 203, rfl⟩
abbrev main_v151 : Ref sig .tc := ⟨.hbm, 204, rfl⟩
abbrev main_c_36 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_37 : Ref sig .tc := ⟨.hbm, 214, rfl⟩
abbrev main_v160 : Ref sig .tc := ⟨.hbm, 215, rfl⟩
abbrev main_c_38 : Ref sig .tc := ⟨.hbm, 216, rfl⟩
abbrev main_v161 : Ref sig .tc := ⟨.hbm, 217, rfl⟩
abbrev main_v162 : Ref sig .tc := ⟨.hbm, 218, rfl⟩
abbrev main_c_39 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_cst_40 : Ref sig .tc := ⟨.hbm, 238, rfl⟩
abbrev main_v181 : Ref sig .tc := ⟨.hbm, 239, rfl⟩
abbrev main_cst_41 : Ref sig .tc := ⟨.hbm, 240, rfl⟩
abbrev main_v182 : Ref sig .tc := ⟨.hbm, 241, rfl⟩
abbrev main_c_42 : Ref sig .tc := ⟨.hbm, 242, rfl⟩
abbrev main_v183 : Ref sig .tc := ⟨.hbm, 243, rfl⟩
abbrev main_v184 : Ref sig .tc := ⟨.hbm, 244, rfl⟩
abbrev main_c_43 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_44 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_c_45 : Ref sig .tc := ⟨.hbm, 255, rfl⟩
abbrev main_v193 : Ref sig .tc := ⟨.hbm, 256, rfl⟩
abbrev main_v194 : Ref sig .tc := ⟨.hbm, 257, rfl⟩
abbrev main_c_46 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_c_47 : Ref sig .tc := ⟨.hbm, 264, rfl⟩
abbrev main_v200 : Ref sig .tc := ⟨.hbm, 265, rfl⟩
abbrev main_v201 : Ref sig .tc := ⟨.hbm, 266, rfl⟩
abbrev main_c_48 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_c_49 : Ref sig .tc := ⟨.hbm, 274, rfl⟩
abbrev main_v208 : Ref sig .tc := ⟨.hbm, 275, rfl⟩
abbrev main_v209 : Ref sig .tc := ⟨.hbm, 276, rfl⟩
abbrev main_c_50 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_cst_51 : Ref sig .tc := ⟨.hbm, 286, rfl⟩
abbrev main_v218 : Ref sig .tc := ⟨.hbm, 287, rfl⟩
abbrev main_c_52 : Ref sig .tc := ⟨.hbm, 288, rfl⟩
abbrev main_v219 : Ref sig .tc := ⟨.hbm, 289, rfl⟩
abbrev main_v220 : Ref sig .tc := ⟨.hbm, 290, rfl⟩
abbrev main_c_53 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x128_S128x256_S5000x256_1_0_0_1_n_n_wf : DotDims.WF S5000x128 S128x256 S5000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v118) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v117) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v176) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 250
  | .vmem => 0
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S128x256, .f32⟩
  | 4 => ⟨S256, .f32⟩
  | 5 => ⟨S128x256, .f32⟩
  | 6 => ⟨S256, .f32⟩
  | 7 => ⟨S256x128, .f32⟩
  | 8 => ⟨S128, .f32⟩
  | 9 => ⟨S256x128, .f32⟩
  | 10 => ⟨S128, .f32⟩
  | 11 => ⟨S50000x256, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x256, .f32⟩
  | 54 => ⟨S800000x1, .f32⟩
  | 55 => ⟨S800000x256, .f32⟩
  | 56 => ⟨S800000x256, .f32⟩
  | 57 => ⟨S_, .f32⟩
  | 58 => ⟨S50000x256, .f32⟩
  | 59 => ⟨S800000x1, .i32⟩
  | 60 => ⟨S50000x256, .f32⟩
  | 61 => ⟨S50000, .f32⟩
  | 62 => ⟨S50000x1, .f32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S1x800000, .i32⟩
  | 74 => ⟨S800000, .i32⟩
  | 75 => ⟨S1x800000, .i32⟩
  | 76 => ⟨S800000, .i32⟩
  | 77 => ⟨S_, .f32⟩
  | 78 => ⟨S800000, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x256, .f32⟩
  | 115 => ⟨S800000x1, .f32⟩
  | 116 => ⟨S800000x256, .f32⟩
  | 117 => ⟨S800000x256, .f32⟩
  | 118 => ⟨S_, .f32⟩
  | 119 => ⟨S50000x256, .f32⟩
  | 120 => ⟨S800000x1, .i32⟩
  | 121 => ⟨S50000x256, .f32⟩
  | 122 => ⟨S50000, .f32⟩
  | 123 => ⟨S50000x1, .f32⟩
  | 124 => ⟨S50000x256, .f32⟩
  | 125 => ⟨S50000x256, .f32⟩
  | 126 => ⟨S50000x256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S800000x1, .f32⟩
  | 49 => ⟨S800000x128, .f32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S50000x128, .f32⟩
  | 64 => ⟨S1x800000, .i32⟩
  | 65 => ⟨S800000, .i32⟩
  | 66 => ⟨S1x800000, .i32⟩
  | 67 => ⟨S800000, .i32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x1, .f32⟩
  | 107 => ⟨S800000x128, .f32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S50000, .f32⟩
  | 114 => ⟨S50000x1, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call1_cst : Ref sig .tc := ⟨.hbm, 130, rfl⟩
abbrev main_call1_v0 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_18 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_20 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_21 : Ref sig .tc := ⟨.hbm, 148, rfl⟩
abbrev main_v110 : Ref sig .tc := ⟨.hbm, 149, rfl⟩
abbrev main_v111 : Ref sig .tc := ⟨.hbm, 150, rfl⟩
abbrev main_c_22 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_c_23 : Ref sig .tc := ⟨.hbm, 157, rfl⟩
abbrev main_v117 : Ref sig .tc := ⟨.hbm, 158, rfl⟩
abbrev main_v118 : Ref sig .tc := ⟨.hbm, 159, rfl⟩
abbrev main_c_24 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_25 : Ref sig .tc := ⟨.hbm, 167, rfl⟩
abbrev main_v125 : Ref sig .tc := ⟨.hbm, 168, rfl⟩
abbrev main_v126 : Ref sig .tc := ⟨.hbm, 169, rfl⟩
abbrev main_c_26 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_27 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_28 : Ref sig .tc := ⟨.hbm, 196, rfl⟩
abbrev main_v151 : Ref sig .tc := ⟨.hbm, 197, rfl⟩
abbrev main_cst_29 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_30 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_c_31 : Ref sig .tc := ⟨.hbm, 206, rfl⟩
abbrev main_v158 : Ref sig .tc := ⟨.hbm, 207, rfl⟩
abbrev main_v159 : Ref sig .tc := ⟨.hbm, 208, rfl⟩
abbrev main_c_32 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_c_33 : Ref sig .tc := ⟨.hbm, 215, rfl⟩
abbrev main_v165 : Ref sig .tc := ⟨.hbm, 216, rfl⟩
abbrev main_v166 : Ref sig .tc := ⟨.hbm, 217, rfl⟩
abbrev main_c_34 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_c_35 : Ref sig .tc := ⟨.hbm, 225, rfl⟩
abbrev main_v173 : Ref sig .tc := ⟨.hbm, 226, rfl⟩
abbrev main_v174 : Ref sig .tc := ⟨.hbm, 227, rfl⟩
abbrev main_c_36 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_37 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.RunResult.lean ====
/-
  The idealized kernel's run, with its result named.

  @main is four matrix-product regions among stretches of host operations. Every weakly fair execution of it terminates
  without a fault; each argument array ends as it was launched, and the returned array ends at the contents that the fold
  of the segments through @main assigns it: the last host stretch applied to what the fourth region leaves, that region
  entered at what the third stretch leaves, and so on back to the launch memory.
-/
import proofs.«141173_j89472758710374_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the returned array holds the fold's contents
    at its buffer and every argument array is unchanged. The launch over the ten segments is the one the frame uses;
    the final thread state is read at the result's buffer as well as at the arguments'. -/
theorem run_result : θ_run defs (onTc (τ := τ) (main (F := F))) ⟨m, fun _ => 0, ρ⟩ (fun r => ∀ c : Dev nD,
      r.2.mem ((c.tc : Thread nD τ).loc main_v234) = W10 m ρ c (Proc.devRef .tc main_v234)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v234 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunResult

end
-- ==== Proof.MatSpec.lean ====
/-
  The matrix products of the graph-convolution towers, as plain sums over the extended reals.

  A node-feature array X of shape [50000, K] times a weight array W of shape [K, N] is the array whose entry
  (r, q) is the sum over k < K of X[r, k] · W[k, q]. The two layer widths of the network give two instances:
  K = 128, N = 256 (first layer) and K = 256, N = 128 (second layer).
-/
import Idealize.ShloMosaic.PureOps.Ideal
import Idealize.ShloMosaic.Lib.ValueIdx

noncomputable section

namespace Cert.Gcn

open Idealize.ShloMosaic Idealize.ShloMosaic.ValueIdx

/-- First-layer product: entry (r, q) of X · W for X of shape [50000, 128] and W of shape [128, 256]. -/
def mmA (x : (⟨2, ![50000, 128]⟩ : Shape).Idx → EReal) (w : (⟨2, ![128, 256]⟩ : Shape).Idx → EReal) :
    (⟨2, ![50000, 256]⟩ : Shape).Idx → EReal :=
  fun i => ∑ k : Fin 128, x (ix2 (⟨(i 0).val, idx2_lt0 i⟩ : Fin 50000) k) * w (ix2 k (⟨(i 1).val, idx2_lt1 i⟩ : Fin 256))

/-- Second-layer product: entry (r, q) of X · W for X of shape [50000, 256] and W of shape [256, 128]. -/
def mmB (x : (⟨2, ![50000, 256]⟩ : Shape).Idx → EReal) (w : (⟨2, ![256, 128]⟩ : Shape).Idx → EReal) :
    (⟨2, ![50000, 128]⟩ : Shape).Idx → EReal :=
  fun i => ∑ k : Fin 256, x (ix2 (⟨(i 0).val, idx2_lt0 i⟩ : Fin 50000) k) * w (ix2 k (⟨(i 1).val, idx2_lt1 i⟩ : Fin 128))

theorem mmA_apply (x : (⟨2, ![50000, 128]⟩ : Shape).Idx → EReal) (w : (⟨2, ![128, 256]⟩ : Shape).Idx → EReal)
    (r : Fin 50000) (q : Fin 256) : mmA x w (ix2 r q) = ∑ k : Fin 128, x (ix2 r k) * w (ix2 k q) := rfl

theorem mmB_apply (x : (⟨2, ![50000, 256]⟩ : Shape).Idx → EReal) (w : (⟨2, ![256, 128]⟩ : Shape).Idx → EReal)
    (r : Fin 50000) (q : Fin 128) : mmB x w (ix2 r q) = ∑ k : Fin 256, x (ix2 r k) * w (ix2 k q) := rfl

end Cert.Gcn

end
-- ==== Proof.Spec.lean ====
/-
  The graph-convolution layer, stated once as a function of its operands.

  A layer takes the transformed features h = X · W (one row per node), an edge list e (row 0 the source node of every
  edge, row 1 its destination) and a bias b. With deg[i] = 1 + (number of edges whose destination is i),
  dinv = deg^(-1/2), and norm[j] = dinv[src j] · dinv[dst j], the layer's output row i is

      Σ_{j : dst j = i} h[src j] · norm[j]  +  h[i] · dinv[i]²  +  b.

  Both programs read a node index Python-style when they GATHER (a negative index counts from the end: `wrap`). They
  differ in the index they SCATTER with: one wraps the destination first, the other scatters with it as given. The layer
  is therefore stated with the scatter's index map `sc` as a parameter, and the two readings agree whenever every
  destination is non-negative (`wrap_eq_self`).

  The whole network is two towers of two layers each, over two edge lists, summed.
-/
import proofs.«141173_j89472758710374_1_alg».proof.Proof.Gen.KernelIdeal
import proofs.«141173_j89472758710374_1_alg».proof.Proof.MatSpec

noncomputable section

namespace Cert.KernelIdeal.Spec

open Idealize.ShloMosaic Cert.KernelIdeal Cert.KernelIdeal.Gen

variable {F : FTy → Type} [FloatOps F]

/-- The edges' source nodes: row 0 of the edge list. -/
def srcOf (e : IVec S2x800000 32) : IVec S800000 32 :=
  shapeCast S800000 (extractStridedSlice S1x800000 ![0, 0] e slices_S2x800000_S1x800000_0_0) shapeCasts_S1x800000_S800000

/-- The edges' destination nodes: row 1 of the edge list. -/
def dstOf (e : IVec S2x800000 32) : IVec S800000 32 :=
  shapeCast S800000 (extractStridedSlice S1x800000 ![1, 0] e slices_S2x800000_S1x800000_1_0) shapeCasts_S1x800000_S800000

/-- A node index read Python-style: a negative index d stands for d + 50000. -/
def wrap (d : IVec S800000 32) : IVec S800000 32 :=
  select (cmpi .slt d (broadcastInDim S800000 ![] bcast_S_S800000 (constantI S_ 32 0#32)))
    (addi d (broadcastInDim S800000 ![] bcast_S_S800000 (constantI S_ 32 50000#32))) d

/-- A list of node indices as a one-column index array. -/
def col (d : IVec S800000 32) : IVec S800000x1 32 := broadcastInDim S800000x1 ![0] bcast_S800000_S800000x1_0 d

/-- dinv = (1 + in-degree)^(-1/2), the in-degree counted by scattering a one per edge at the index `s`. -/
def dinvOf (s : IVec S800000 32) : FVec F S50000 .f32 :=
  Host.rsqrt (addf
    (Host.scatterAdd scatter_S50000_S800000x1_S800000_n_0_0_1
      (broadcastInDim S50000 ![] bcast_S_S50000 (constant S_ .f32 0x00000000#32)) (col s)
      (broadcastInDim S800000 ![] bcast_S_S800000 (constant S_ .f32 0x3F800000#32)))
    (broadcastInDim S50000 ![] bcast_S_S50000 (constant S_ .f32 0x3F800000#32)))

/-- The edge weights norm[j] = dinv[src j] · dinv[dst j]. -/
def normOf (dinv : FVec F S50000 .f32) (src dst : IVec S800000 32) : FVec F S800000 .f32 :=
  mulf (Host.gather gather_S50000_S800000x1_S800000_n_0_n_n_0_1_1 dinv (col (wrap src)))
    (Host.gather gather_S50000_S800000x1_S800000_n_0_n_n_0_1_1 dinv (col (wrap dst)))

/-- A layer of width 256, scattering with the destination read through `sc`. -/
def conv256 (sc : IVec S800000 32 → IVec S800000 32) (h : FVec F S50000x256 .f32) (e : IVec S2x800000 32)
    (b : FVec F S256 .f32) : FVec F S50000x256 .f32 :=
  addf (addf
    (Host.scatterAdd scatter_S50000x256_S800000x1_S800000x256_1_0_0_1
      (broadcastInDim S50000x256 ![] bcast_S_S50000x256 (constant S_ .f32 0x00000000#32)) (col (sc (dstOf e)))
      (mulf (Host.gather gather_S50000x256_S800000x1_S800000x256_1_0_n_n_0_1_1256 h (col (wrap (srcOf e))))
        (broadcastInDim S800000x256 ![0, 1] bcast_S800000x1_S800000x256_0_1
          (broadcastInDim S800000x1 ![0] bcast_S800000_S800000x1_0
            (normOf (dinvOf (F := F) (sc (dstOf e))) (srcOf e) (dstOf e))))))
    (mulf h (broadcastInDim S50000x256 ![0, 1] bcast_S50000x1_S50000x256_0_1
      (broadcastInDim S50000x1 ![0] bcast_S50000_S50000x1_0
        (mulf (dinvOf (F := F) (sc (dstOf e))) (dinvOf (F := F) (sc (dstOf e))))))))
    (broadcastInDim S50000x256 ![0, 1] bcast_S1x256_S50000x256_0_1 (broadcastInDim S1x256 ![1] bcast_S256_S1x256_1 b))

/-- A layer of width 128, scattering with the destination read through `sc`. -/
def conv128 (sc : IVec S800000 32 → IVec S800000 32) (h : FVec F S50000x128 .f32) (e : IVec S2x800000 32)
    (b : FVec F S128 .f32) : FVec F S50000x128 .f32 :=
  addf (addf
    (Host.scatterAdd scatter_S50000x128_S800000x1_S800000x128_1_0_0_1
      (broadcastInDim S50000x128 ![] bcast_S_S50000x128 (constant S_ .f32 0x00000000#32)) (col (sc (dstOf e)))
      (mulf (Host.gather gather_S50000x128_S800000x1_S800000x128_1_0_n_n_0_1_1128 h (col (wrap (srcOf e))))
        (broadcastInDim S800000x128 ![0, 1] bcast_S800000x1_S800000x128_0_1
          (broadcastInDim S800000x1 ![0] bcast_S800000_S800000x1_0
            (normOf (dinvOf (F := F) (sc (dstOf e))) (srcOf e) (dstOf e))))))
    (mulf h (broadcastInDim S50000x128 ![0, 1] bcast_S50000x1_S50000x128_0_1
      (broadcastInDim S50000x1 ![0] bcast_S50000_S50000x1_0
        (mulf (dinvOf (F := F) (sc (dstOf e))) (dinvOf (F := F) (sc (dstOf e))))))))
    (broadcastInDim S50000x128 ![0, 1] bcast_S1x128_S50000x128_0_1 (broadcastInDim S1x128 ![1] bcast_S128_S1x128_1 b))

/-- The rectifier max(x, 0) on a hidden-layer array. -/
def relu256 (x : FVec F S50000x256 .f32) : FVec F S50000x256 .f32 :=
  maximumf x (broadcastInDim S50000x256 ![] bcast_S_S50000x256 (constant S_ .f32 0x00000000#32))

/-- The hidden activations of one tower: relu of a width-256 layer over X · W. -/
def hidden (sc : IVec S800000 32 → IVec S800000 32) (x : FVec Ideal S50000x128 .f32) (e : IVec S2x800000 32)
    (w : FVec Ideal S128x256 .f32) (b : FVec Ideal S256 .f32) : FVec Ideal S50000x256 .f32 :=
  relu256 (conv256 sc (Cert.Gcn.mmA x w) e b)

/-- One tower: a width-128 layer over (hidden activations) · W'. -/
def tower (sc : IVec S800000 32 → IVec S800000 32) (x : FVec Ideal S50000x128 .f32) (e : IVec S2x800000 32)
    (w : FVec Ideal S128x256 .f32) (b : FVec Ideal S256 .f32) (w' : FVec Ideal S256x128 .f32) (b' : FVec Ideal S128 .f32) :
    FVec Ideal S50000x128 .f32 :=
  conv128 sc (Cert.Gcn.mmB (hidden sc x e w b) w') e b'

/-- The network: the two towers' outputs, added. -/
def net (sc : IVec S800000 32 → IVec S800000 32) (x : FVec Ideal S50000x128 .f32) (e1 e2 : IVec S2x800000 32)
    (w0 : FVec Ideal S128x256 .f32) (b0 : FVec Ideal S256 .f32) (w1 : FVec Ideal S128x256 .f32) (b1 : FVec Ideal S256 .f32)
    (w2 : FVec Ideal S256x128 .f32) (b2 : FVec Ideal S128 .f32) (w3 : FVec Ideal S256x128 .f32) (b3 : FVec Ideal S128 .f32) :
    FVec Ideal S50000x128 .f32 :=
  addf (tower sc x e1 w0 b0 w2 b2) (tower sc x e2 w1 b1 w3 b3)

end Cert.KernelIdeal.Spec

end
-- ==== Proof.Stretch.lean ====
/-
  What each stretch of host operations of the idealized kernel's @main computes, as the layer functions of Spec.lean.

  Between its four matrix-product regions @main runs the graph convolution's gather / scatter arithmetic on the host.
  Each stretch, run from ANY buffer contents W, leaves in its last buffer the layer function of Spec.lean applied to
  what W holds at the stretch's inputs: the region's product array, the edge list and the bias. The kernel scatters with
  the destination index read Python-style (`Spec.wrap`).
-/
import proofs.«141173_j89472758710374_1_alg».proof.Proof.Gen.KernelIdeal.Launch
import proofs.«141173_j89472758710374_1_alg».proof.Proof.Spec
import Idealize.ShloMosaic.Lib.StableHlo.Run

set_option maxRecDepth 16384
set_option Elab.async false

noncomputable section

namespace Cert.KernelIdeal.Stretch

open Cert.KernelIdeal Cert.KernelIdeal.Gen Cert.KernelIdeal.Spec
open Idealize.ShloMosaic Idealize.ShloMosaic.TcCoe Idealize.ShloMosaic.StableHlo

set_option maxHeartbeats 4000000 in
/-- First tower, first layer, then the rectifier: from the first region's product, edge list 1 and bias 0. -/
theorem stretch1 (W : Valuation τ sig (Elt Ideal)) :
    StableHlo.after hostOps1_1 (StableHlo.after hostOps1 W) (Proc.devRef .tc main_v58)
      = relu256 (F := Ideal) (conv256 (F := Ideal) wrap (W (Proc.devRef .tc main_v0)) (W (Proc.devRef .tc main_arg1)) (W (Proc.devRef .tc main_arg4))) := by
  after_results_simp
  rfl

set_option maxHeartbeats 4000000 in
/-- Second tower, first layer, then the rectifier: from the second region's product, edge list 2 and bias 1. -/
theorem stretch2 (W : Valuation τ sig (Elt Ideal)) :
    StableHlo.after hostOps2_1 (StableHlo.after hostOps2 W) (Proc.devRef .tc main_v117)
      = relu256 (F := Ideal) (conv256 (F := Ideal) wrap (W (Proc.devRef .tc main_v59)) (W (Proc.devRef .tc main_arg2)) (W (Proc.devRef .tc main_arg6))) := by
  after_results_simp
  rfl

set_option maxHeartbeats 4000000 in
/-- First tower, second layer: from the third region's product, edge list 1 and bias 2. -/
theorem stretch3 (W : Valuation τ sig (Elt Ideal)) :
    StableHlo.after hostOps3 W (Proc.devRef .tc main_v175)
      = conv128 (F := Ideal) wrap (W (Proc.devRef .tc main_v118)) (W (Proc.devRef .tc main_arg1)) (W (Proc.devRef .tc main_arg8)) := by
  after_results_simp
  rfl

set_option maxHeartbeats 4000000 in
/-- Second tower, second layer, added to the first tower's output: from the fourth region's product, edge list 2, bias 3
    and the first tower's output. -/
theorem stretch4 (W : Valuation τ sig (Elt Ideal)) :
    StableHlo.after hostOps4 W (Proc.devRef .tc main_v234)
      = addf (F := Ideal) (s := S50000x128) (φ := .f32) (W (Proc.devRef .tc main_v175))
          (conv128 (F := Ideal) wrap (W (Proc.devRef .tc main_v176)) (W (Proc.devRef .tc main_arg2)) (W (Proc.devRef .tc main_arg10))) := by
  after_results_simp
  rfl

end Cert.KernelIdeal.Stretch

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Region0.lean ====
/-
  Region 0: a row-tiled matrix product, from the blocks the grid points write to the whole output array.

  Grid point t, of ten, forms rows 5000·t … 5000·t + 4999 of the output: the product of the same rows of the left
  operand, an array of shape [50000, 128], with the whole right operand, of shape [128, 256], accumulated into zeros.
  Over the extended reals the rounding of the operands to a narrower format is the identity, so the block written at
  point t is block t of the plain product X · W, whose entry (r, q) is Σ_{k < 128} X[r, k] · W[k, q]. The ten blocks of
  5000 rows tile the 50000 rows, so after the region the output array is X · W — for any contents of the buffers when
  the region is entered.
-/
import proofs.«141173_j89472758710374_1_alg».proof.Proof.Gen.KernelIdeal.Frame
import proofs.«141173_j89472758710374_1_alg».proof.Proof.MatSpec
import proofs.«141173_j89472758710374_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a whole-block access, as the constant function. -/
theorem off_zero0 : (![0, 0] : Fin 2 → Nat) = fun _ => 0 := funext fun a => by fin_cases a <;> rfl

/-- The block index maps over the ten grid points: the left operand and the output move down the rows together,
    one block of 5000 rows per point; the right operand is always its one whole block. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at entry (p, q): the bf16 roundings are the identity over the extended reals, so it is the
    inner product of row p of the left block with column q of the right block. -/
theorem payload0_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  exact Cert.MatmulNN.matmul_zero_apply (M := 5000) (K := 128) (N := 256)
    dot_S5000x128_S128x256_S5000x256_1_0_0_1_n_n rfl none x0 x1 p q

/-- The first-layer product of the two input arrays as the region finds them. -/
abbrev prod0 (c : Dev nD) : S50000x256.Idx → EReal :=
  Cert.Gcn.mmA (V c (Pipeline.arrRef spec0 0)) (V c (Pipeline.arrRef spec0 1))

/-- What grid point t writes back is block t of the product. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 (F := Ideal) V c).after 2 t) = _
  rw [after0_2]
  unfold out0_2
  rw [View.canon_unit_zero off_zero0]
  simp only [View.ld_unit_zero (S := S5000x128) off_zero0, View.ld_unit_zero (S := S128x256) off_zero0]
  obtain ⟨e0, e1, e2, e3, e4, e5⟩ := index_facts0 t
  funext j
  obtain ⟨p, q, rfl⟩ : ∃ (p : Fin 5000) (q : Fin 256), j = ix2 p q := ⟨j 0, j 1, eq_ix2 j⟩
  show k0_pay1 (iblk0 V c 0 t) (iblk0 V c 1 t) (ix2 p q) = prod0 V c (((cfg0.win 2).blk t).view.emb (ix2 p q))
  refine (payload0_apply _ _ p q).trans ?_
  unfold prod0 Cert.Gcn.mmA
  refine Finset.sum_congr rfl fun k _ => ?_
  refine congrArg₂ (fun a b : EReal => a * b) ?_ ?_
  · show V c (Pipeline.arrRef spec0 0) (((cfg0.win 0).blk t).view.emb (ix2 p k)) = _
    refine congrArg _ ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c (Pipeline.arrRef spec0 1) (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega

/-- An index of the output array lies in point t's block iff each coordinate lies in the block's range on its axis. -/
theorem mem_block0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v0).slice (win0_2.rect t)).set ↔ _
  rw [View.set_slice_whole, Rect.mem_set_unit]
  exact Iff.rfl

/-- The ten blocks of 5000 rows tile the 50000 rows: row r lies in the block of point r / 5000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, by show (i 0).val / 5000 < 10; omega⟩, rfl⟩
  obtain ⟨e0, e1, e2, e3, e4, e5⟩ := index_facts0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- REGION 0: after the region the output array is the first-layer product of the two input arrays as the region
    finds them, for any contents at entry. -/
theorem region0_value (c : Dev nD) :
    (Cert.KernelIdeal.Gen.dat0 (F := Ideal) V c).arrAt 2 cfg0.N
      = Cert.Gcn.mmA (V c (Pipeline.arrRef spec0 0)) (V c (Pipeline.arrRef spec0 1)) :=
  (dat0 (F := Ideal) V c).arrAt_eq_of_cover 2 (prod0 V c) (fun t _ => flushed0_eq V c t) cover0

end Cert.KernelIdeal.RegionValue

end
-- ==== Proof.Region1.lean ====
/-
  Region 1: a row-tiled matrix product, from the blocks the grid points write to the whole output array.

  Grid point t, of ten, forms rows 5000·t … 5000·t + 4999 of the output: the product of the same rows of the left
  operand, an array of shape [50000, 128], with the whole right operand, of shape [128, 256], accumulated into zeros.
  Over the extended reals the rounding of the operands to a narrower format is the identity, so the block written at
  point t is block t of the plain product X · W, whose entry (r, q) is Σ_{k < 128} X[r, k] · W[k, q]. The ten blocks of
  5000 rows tile the 50000 rows, so after the region the output array is X · W — for any contents of the buffers when
  the region is entered.
-/
import proofs.«141173_j89472758710374_1_alg».proof.Proof.Gen.KernelIdeal.Frame
import proofs.«141173_j89472758710374_1_alg».proof.Proof.MatSpec
import proofs.«141173_j89472758710374_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a whole-block access, as the constant function. -/
theorem off_zero1 : (![0, 0] : Fin 2 → Nat) = fun _ => 0 := funext fun a => by fin_cases a <;> rfl

/-- The block index maps over the ten grid points: the left operand and the output move down the rows together,
    one block of 5000 rows per point; the right operand is always its one whole block. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's payload at entry (p, q): the bf16 roundings are the identity over the extended reals, so it is the
    inner product of row p of the left block with column q of the right block. -/
theorem payload1_apply (x0 : Vec Ideal S5000x128 .f32) (x1 : Vec Ideal S128x256 .f32) (p : Fin 5000) (q : Fin 256) :
    k1_pay1 x0 x1 (ix2 p q) = ∑ k : Fin 128, x0 (ix2 p k) * x1 (ix2 k q) := by
  unfold k1_pay1
  exact Cert.MatmulNN.matmul_zero_apply (M := 5000) (K := 128) (N := 256)
    dot_S5000x128_S128x256_S5000x256_1_0_0_1_n_n rfl none x0 x1 p q

/-- The first-layer product of the two input arrays as the region finds them. -/
abbrev prod1 (c : Dev nD) : S50000x256.Idx → EReal :=
  Cert.Gcn.mmA (V c (Pipeline.arrRef spec1 0)) (V c (Pipeline.arrRef spec1 1))

/-- What grid point t writes back is block t of the product. -/
theorem flushed1_eq (c : Dev nD) (t : Fin cfg1.N) :
    (dat1 (F := Ideal) V c).flushed 2 t = ((cfg1.win 2).blk t).view.read (Elt Ideal) (prod1 V c) := by
  show (cfg1.win 2).cut (grid1.coords t) ((dat1 (F := Ideal) V c).after 2 t) = _
  rw [after1_2]
  unfold out1_2
  rw [View.canon_unit_zero off_zero1]
  simp only [View.ld_unit_zero (S := S5000x128) off_zero1, View.ld_unit_zero (S := S128x256) off_zero1]
  obtain ⟨e0, e1, e2, e3, e4, e5⟩ := index_facts1 t
  funext j
  obtain ⟨p, q, rfl⟩ : ∃ (p : Fin 5000) (q : Fin 256), j = ix2 p q := ⟨j 0, j 1, eq_ix2 j⟩
  show k1_pay1 (iblk1 V c 0 t) (iblk1 V c 1 t) (ix2 p q) = prod1 V c (((cfg1.win 2).blk t).view.emb (ix2 p q))
  refine (payload1_apply _ _ p q).trans ?_
  unfold prod1 Cert.Gcn.mmA
  refine Finset.sum_congr rfl fun k _ => ?_
  refine congrArg₂ (fun a b : EReal => a * b) ?_ ?_
  · show V c (Pipeline.arrRef spec1 0) (((cfg1.win 0).blk t).view.emb (ix2 p k)) = _
    refine congrArg _ ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  · show V c (Pipeline.arrRef spec1 1) (((cfg1.win 1).blk t).view.emb (ix2 k q)) = _
    refine congrArg _ ?_
    funext a; apply Fin.ext
    match a with
    | ⟨0, _⟩ => show win1_1.index t (0 : Fin 2) * 128 + 1 * k.val = k.val; omega
    | ⟨1, _⟩ => show win1_1.index t (1 : Fin 2) * 256 + 1 * q.val = win1_2.index t (1 : Fin 2) * 256 + 1 * q.val; omega

/-- An index of the output array lies in point t's block iff each coordinate lies in the block's range on its axis. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v59).slice (win1_2.rect t)).set ↔ _
  rw [View.set_slice_whole, Rect.mem_set_unit]
  exact Iff.rfl

/-- The ten blocks of 5000 rows tile the 50000 rows: row r lies in the block of point r / 5000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ : ∃ t : Fin cfg1.N, t.val = (i 0).val / 5000 :=
    ⟨⟨(i 0).val / 5000, by show (i 0).val / 5000 < 10; omega⟩, rfl⟩
  obtain ⟨e0, e1, e2, e3, e4, e5⟩ := index_facts1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- REGION 1: after the region the output array is the first-layer product of the two input arrays as the region
    finds them, for any contents at entry. -/
theorem region1_value (c : Dev nD) :
    (Cert.KernelIdeal.Gen.dat1 (F := Ideal) V c).arrAt 2 cfg1.N
      = Cert.Gcn.mmA (V c (Pipeline.arrRef spec1 0)) (V c (Pipeline.arrRef spec1 1)) :=
  (dat1 (F := Ideal) V c).arrAt_eq_of_cover 2 (prod1 V c) (fun t _ => flushed1_eq V c t) cover1

end Cert.KernelIdeal.RegionValue

end
-- ==== Proof.Region2.lean ====
/-
  Region 2: a row-tiled matrix product, from the blocks the grid points write to the whole output array.

  Grid point t, of ten, forms rows 5000·t … 5000·t + 4999 of the output: the product of the same rows of the left
  operand, an array of shape [50000, 256], with the whole right operand, of shape [256, 128], accumulated into zeros.
  Over the extended reals the rounding of the operands to a narrower format is the identity, so the block written at
  point t is block t of the plain product X · W, whose entry (r, q) is Σ_{k < 256} X[r, k] · W[k, q]. The ten blocks of
  5000 rows tile the 50000 rows, so after the region the output array is X · W — for any contents of the buffers when
  the region is entered.
-/
import proofs.«141173_j89472758710374_1_alg».proof.Proof.Gen.KernelIdeal.Frame
import proofs.«141173_j89472758710374_1_alg».proof.Proof.MatSpec
import proofs.«141173_j89472758710374_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a whole-block access, as the constant function. -/
theorem off_zero2 : (![0, 0] : Fin 2 → Nat) = fun _ => 0 := funext fun a => by fin_cases a <;> rfl

/-- The block index maps over the ten grid points: the left operand and the output move down the rows together,
    one block of 5000 rows per point; the right operand is always its one whole block. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's payload at entry (p, q): the cast of the left block to its own shape and the bf16 roundings are the
    identity over the extended reals, so it is the inner product of row p of the left block with column q of the
    right block. -/
theorem payload2_apply (x0 : Vec Ideal S5000x256 .f32) (x1 : Vec Ideal S256x128 .f32) (p : Fin 5000) (q : Fin 128) :
    k2_pay1 x0 x1 (ix2 p q) = ∑ k : Fin 256, x0 (ix2 p k) * x1 (ix2 k q) := by
  unfold k2_pay1
  have hcast : shapeCast S5000x256 x0 shapeCasts_S5000x256_S5000x256 = x0 := shapeCast_self x0 _
  rw [hcast]
  exact Cert.MatmulNN.matmul_zero_apply (M := 5000) (K := 256) (N := 128)
    dot_S5000x256_S256x128_S5000x128_1_0_0_1_n_n rfl none x0 x1 p q

/-- The second-layer product of the two input arrays as the region finds them. -/
abbrev prod2 (c : Dev nD) : S50000x128.Idx → EReal :=
  Cert.Gcn.mmB (V c (Pipeline.arrRef spec2 0)) (V c (Pipeline.arrRef spec2 1))

/-- What grid point t writes back is block t of the product. -/
theorem flushed2_eq (c : Dev nD) (t : Fin cfg2.N) :
    (dat2 (F := Ideal) V c).flushed 2 t = ((cfg2.win 2).blk t).view.read (Elt Ideal) (prod2 V c) := by
  show (cfg2.win 2).cut (grid2.coords t) ((dat2 (F := Ideal) V c).after 2 t) = _
  rw [after2_2]
  unfold out2_2
  rw [View.canon_unit_zero off_zero2]
  simp only [View.ld_unit_zero (S := S5000x256) off_zero2, View.ld_unit_zero (S := S256x128) off_zero2]
  obtain ⟨e0, e1, e2, e3, e4, e5⟩ := index_facts2 t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q) = prod2 V c (((cfg2.win 2).blk t).view.emb (ix2 p q))
  refine (payload2_apply _ _ p q).trans ?_
  unfold prod2 Cert.Gcn.mmB
  refine Finset.sum_congr rfl fun k _ => ?_
  refine congrArg₂ (fun a b : EReal => a * b) ?_ ?_
  · show V c (Pipeline.arrRef spec2 0) (((cfg2.win 0).blk t).view.emb (ix2 p k)) = _
    refine congrArg _ ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 256 + 1 * k.val = k.val; omega
  · show V c (Pipeline.arrRef spec2 1) (((cfg2.win 1).blk t).view.emb (ix2 k q)) = _
    refine congrArg _ ?_
    funext a; apply Fin.ext
    match a with
    | ⟨0, _⟩ => show win2_1.index t (0 : Fin 2) * 256 + 1 * k.val = k.val; omega
    | ⟨1, _⟩ => show win2_1.index t (1 : Fin 2) * 128 + 1 * q.val = win2_2.index t (1 : Fin 2) * 128 + 1 * q.val; omega

/-- An index of the output array lies in point t's block iff each coordinate lies in the block's range on its axis. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v118).slice (win2_2.rect t)).set ↔ _
  rw [View.set_slice_whole, Rect.mem_set_unit]
  exact Iff.rfl

/-- The ten blocks of 5000 rows tile the 50000 rows: row r lies in the block of point r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < 10; omega⟩, rfl⟩
  obtain ⟨e0, e1, e2, e3, e4, e5⟩ := index_facts2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- REGION 2: after the region the output array is the second-layer product of the two input arrays as the region
    finds them, for any contents at entry. -/
theorem region2_value (c : Dev nD) :
    (Cert.KernelIdeal.Gen.dat2 (F := Ideal) V c).arrAt 2 cfg2.N
      = Cert.Gcn.mmB (V c (Pipeline.arrRef spec2 0)) (V c (Pipeline.arrRef spec2 1)) :=
  (dat2 (F := Ideal) V c).arrAt_eq_of_cover 2 (prod2 V c) (fun t _ => flushed2_eq V c t) cover2

end Cert.KernelIdeal.RegionValue

end
-- ==== Proof.Region3.lean ====
/-
  Region 3: a row-tiled matrix product, from the blocks the grid points write to the whole output array.

  Grid point t, of ten, forms rows 5000·t … 5000·t + 4999 of the output: the product of the same rows of the left
  operand, an array of shape [50000, 256], with the whole right operand, of shape [256, 128], accumulated into zeros.
  Over the extended reals the rounding of the operands to a narrower format is the identity, so the block written at
  point t is block t of the plain product X · W, whose entry (r, q) is Σ_{k < 256} X[r, k] · W[k, q]. The ten blocks of
  5000 rows tile the 50000 rows, so after the region the output array is X · W — for any contents of the buffers when
  the region is entered.
-/
import proofs.«141173_j89472758710374_1_alg».proof.Proof.Gen.KernelIdeal.Frame
import proofs.«141173_j89472758710374_1_alg».proof.Proof.MatSpec
import proofs.«141173_j89472758710374_1_alg».proof.Proof.LibMatmulNN
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a whole-block access, as the constant function. -/
theorem off_zero3 : (![0, 0] : Fin 2 → Nat) = fun _ => 0 := funext fun a => by fin_cases a <;> rfl

/-- The block index maps over the ten grid points: the left operand and the output move down the rows together,
    one block of 5000 rows per point; the right operand is always its one whole block. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's payload at entry (p, q): the cast of the left block to its own shape and the bf16 roundings are the
    identity over the extended reals, so it is the inner product of row p of the left block with column q of the
    right block. -/
theorem payload3_apply (x0 : Vec Ideal S5000x256 .f32) (x1 : Vec Ideal S256x128 .f32) (p : Fin 5000) (q : Fin 128) :
    k3_pay1 x0 x1 (ix2 p q) = ∑ k : Fin 256, x0 (ix2 p k) * x1 (ix2 k q) := by
  unfold k3_pay1
  have hcast : shapeCast S5000x256 x0 shapeCasts_S5000x256_S5000x256 = x0 := shapeCast_self x0 _
  rw [hcast]
  exact Cert.MatmulNN.matmul_zero_apply (M := 5000) (K := 256) (N := 128)
    dot_S5000x256_S256x128_S5000x128_1_0_0_1_n_n rfl none x0 x1 p q

/-- The second-layer product of the two input arrays as the region finds them. -/
abbrev prod3 (c : Dev nD) : S50000x128.Idx → EReal :=
  Cert.Gcn.mmB (V c (Pipeline.arrRef spec3 0)) (V c (Pipeline.arrRef spec3 1))

/-- What grid point t writes back is block t of the product. -/
theorem flushed3_eq (c : Dev nD) (t : Fin cfg3.N) :
    (dat3 (F := Ideal) V c).flushed 2 t = ((cfg3.win 2).blk t).view.read (Elt Ideal) (prod3 V c) := by
  show (cfg3.win 2).cut (grid3.coords t) ((dat3 (F := Ideal) V c).after 2 t) = _
  rw [after3_2]
  unfold out3_2
  rw [View.canon_unit_zero off_zero3]
  simp only [View.ld_unit_zero (S := S5000x256) off_zero3, View.ld_unit_zero (S := S256x128) off_zero3]
  obtain ⟨e0, e1, e2, e3, e4, e5⟩ := index_facts3 t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = prod3 V c (((cfg3.win 2).blk t).view.emb (ix2 p q))
  refine (payload3_apply _ _ p q).trans ?_
  unfold prod3 Cert.Gcn.mmB
  refine Finset.sum_congr rfl fun k _ => ?_
  refine congrArg₂ (fun a b : EReal => a * b) ?_ ?_
  · show V c (Pipeline.arrRef spec3 0) (((cfg3.win 0).blk t).view.emb (ix2 p k)) = _
    refine congrArg _ ?_
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 256 + 1 * k.val = k.val; omega
  · show V c (Pipeline.arrRef spec3 1) (((cfg3.win 1).blk t).view.emb (ix2 k q)) = _
    refine congrArg _ ?_
    funext a; apply Fin.ext
    match a with
    | ⟨0, _⟩ => show win3_1.index t (0 : Fin 2) * 256 + 1 * k.val = k.val; omega
    | ⟨1, _⟩ => show win3_1.index t (1 : Fin 2) * 128 + 1 * q.val = win3_2.index t (1 : Fin 2) * 128 + 1 * q.val; omega

/-- An index of the output array lies in point t's block iff each coordinate lies in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v176).slice (win3_2.rect t)).set ↔ _
  rw [View.set_slice_whole, Rect.mem_set_unit]
  exact Iff.rfl

/-- The ten blocks of 5000 rows tile the 50000 rows: row r lies in the block of point r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by show (i 0).val / 5000 < 10; omega⟩, rfl⟩
  obtain ⟨e0, e1, e2, e3, e4, e5⟩ := index_facts3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- REGION 3: after the region the output array is the second-layer product of the two input arrays as the region
    finds them, for any contents at entry. -/
theorem region3_value (c : Dev nD) :
    (Cert.KernelIdeal.Gen.dat3 (F := Ideal) V c).arrAt 2 cfg3.N
      = Cert.Gcn.mmB (V c (Pipeline.arrRef spec3 0)) (V c (Pipeline.arrRef spec3 1)) :=
  (dat3 (F := Ideal) V c).arrAt_eq_of_cover 2 (prod3 V c) (fun t _ => flushed3_eq V c t) cover3

end Cert.KernelIdeal.RegionValue

end
-- ==== Proof.Fold.lean ====
/-
  The contents of the idealized kernel's buffers at each segment boundary of @main, read back to the launch memory.

  @main alternates matrix-product regions and stretches of host operations. At every boundary the buffers that matter
  hold a closed function of the argument arrays: a region's output array the product of its two input arrays (the four
  region lemmas), a stretch's last buffer a layer function of its inputs (Stretch.lean), and every buffer that a segment
  neither writes nor owns keeps what it held. Chained from the launch to the return this gives the returned array as the
  network function of the arguments, scattering with Python-style destination indices (`Spec.net Spec.wrap`).
-/
import proofs.«141173_j89472758710374_1_alg».proof.Proof.Gen.KernelIdeal.Frame
import proofs.«141173_j89472758710374_1_alg».proof.Proof.Stretch
import proofs.«141173_j89472758710374_1_alg».proof.Proof.Region0
import proofs.«141173_j89472758710374_1_alg».proof.Proof.Region1
import proofs.«141173_j89472758710374_1_alg».proof.Proof.Region2
import proofs.«141173_j89472758710374_1_alg».proof.Proof.Region3

set_option maxRecDepth 16384

noncomputable section

namespace Cert.KernelIdeal.Fold

open Cert.KernelIdeal Cert.KernelIdeal.Gen Cert.KernelIdeal.Spec Cert.KernelIdeal.Stretch Cert.KernelIdeal.RegionValue
open Idealize.ShloMosaic Idealize.ShloMosaic.TcCoe Idealize.ShloMosaic.StableHlo Idealize.SL.Sem

/-! ## Buffers a stretch of host operations does not write keep their contents -/

section Pass
variable (W : Valuation τ sig (Elt Ideal))
theorem pass1_main_arg0 : StableHlo.after hostOps1_1 (StableHlo.after hostOps1 W) (Proc.devRef .tc main_arg0) = W (Proc.devRef .tc main_arg0) :=
  (StableHlo.after_of_forall_not_mem (b := (Proc.devRef .tc main_arg0)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg0)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg1 : StableHlo.after hostOps1_1 (StableHlo.after hostOps1 W) (Proc.devRef .tc main_arg1) = W (Proc.devRef .tc main_arg1) :=
  (StableHlo.after_of_forall_not_mem (b := (Proc.devRef .tc main_arg1)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg1)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg2 : StableHlo.after hostOps1_1 (StableHlo.after hostOps1 W) (Proc.devRef .tc main_arg2) = W (Proc.devRef .tc main_arg2) :=
  (StableHlo.after_of_forall_not_mem (b := (Proc.devRef .tc main_arg2)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg2)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg5 : StableHlo.after hostOps1_1 (StableHlo.after hostOps1 W) (Proc.devRef .tc main_arg5) = W (Proc.devRef .tc main_arg5) :=
  (StableHlo.after_of_forall_not_mem (b := (Proc.devRef .tc main_arg5)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg5)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg6 : StableHlo.after hostOps1_1 (StableHlo.after hostOps1 W) (Proc.devRef .tc main_arg6) = W (Proc.devRef .tc main_arg6) :=
  (StableHlo.after_of_forall_not_mem (b := (Proc.devRef .tc main_arg6)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg6)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg7 : StableHlo.after hostOps1_1 (StableHlo.after hostOps1 W) (Proc.devRef .tc main_arg7) = W (Proc.devRef .tc main_arg7) :=
  (StableHlo.after_of_forall_not_mem (b := (Proc.devRef .tc main_arg7)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg7)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg8 : StableHlo.after hostOps1_1 (StableHlo.after hostOps1 W) (Proc.devRef .tc main_arg8) = W (Proc.devRef .tc main_arg8) :=
  (StableHlo.after_of_forall_not_mem (b := (Proc.devRef .tc main_arg8)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg8)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg9 : StableHlo.after hostOps1_1 (StableHlo.after hostOps1 W) (Proc.devRef .tc main_arg9) = W (Proc.devRef .tc main_arg9) :=
  (StableHlo.after_of_forall_not_mem (b := (Proc.devRef .tc main_arg9)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg9)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass1_main_arg10 : StableHlo.after hostOps1_1 (StableHlo.after hostOps1 W) (Proc.devRef .tc main_arg10) = W (Proc.devRef .tc main_arg10) :=
  (StableHlo.after_of_forall_not_mem (b := (Proc.devRef .tc main_arg10)) _ _ (List.forall_iff_forall_mem.mp (by
    simp only [hostOps1_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg10)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_v58 : StableHlo.after hostOps2_1 (StableHlo.after hostOps2 W) (Proc.devRef .tc main_v58) = W (Proc.devRef .tc main_v58) :=
  (StableHlo.after_of_forall_not_mem (b := (Proc.devRef .tc main_v58)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_v58)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_arg1 : StableHlo.after hostOps2_1 (StableHlo.after hostOps2 W) (Proc.devRef .tc main_arg1) = W (Proc.devRef .tc main_arg1) :=
  (StableHlo.after_of_forall_not_mem (b := (Proc.devRef .tc main_arg1)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg1)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_arg2 : StableHlo.after hostOps2_1 (StableHlo.after hostOps2 W) (Proc.devRef .tc main_arg2) = W (Proc.devRef .tc main_arg2) :=
  (StableHlo.after_of_forall_not_mem (b := (Proc.devRef .tc main_arg2)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg2)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_arg7 : StableHlo.after hostOps2_1 (StableHlo.after hostOps2 W) (Proc.devRef .tc main_arg7) = W (Proc.devRef .tc main_arg7) :=
  (StableHlo.after_of_forall_not_mem (b := (Proc.devRef .tc main_arg7)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg7)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_arg8 : StableHlo.after hostOps2_1 (StableHlo.after hostOps2 W) (Proc.devRef .tc main_arg8) = W (Proc.devRef .tc main_arg8) :=
  (StableHlo.after_of_forall_not_mem (b := (Proc.devRef .tc main_arg8)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg8)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_arg9 : StableHlo.after hostOps2_1 (StableHlo.after hostOps2 W) (Proc.devRef .tc main_arg9) = W (Proc.devRef .tc main_arg9) :=
  (StableHlo.after_of_forall_not_mem (b := (Proc.devRef .tc main_arg9)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg9)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass2_main_arg10 : StableHlo.after hostOps2_1 (StableHlo.after hostOps2 W) (Proc.devRef .tc main_arg10) = W (Proc.devRef .tc main_arg10) :=
  (StableHlo.after_of_forall_not_mem (b := (Proc.devRef .tc main_arg10)) _ _ (List.forall_iff_forall_mem.mp (by
    simp only [hostOps2_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans
  (StableHlo.after_of_forall_not_mem (b := (Proc.devRef .tc main_arg10)) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass3_main_v117 : StableHlo.after hostOps3 W (Proc.devRef .tc main_v117) = W (Proc.devRef .tc main_v117) :=
  (StableHlo.after_of_forall_not_mem (b := (Proc.devRef .tc main_v117)) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass3_main_arg2 : StableHlo.after hostOps3 W (Proc.devRef .tc main_arg2) = W (Proc.devRef .tc main_arg2) :=
  (StableHlo.after_of_forall_not_mem (b := (Proc.devRef .tc main_arg2)) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass3_main_arg9 : StableHlo.after hostOps3 W (Proc.devRef .tc main_arg9) = W (Proc.devRef .tc main_arg9) :=
  (StableHlo.after_of_forall_not_mem (b := (Proc.devRef .tc main_arg9)) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
theorem pass3_main_arg10 : StableHlo.after hostOps3 W (Proc.devRef .tc main_arg10) = W (Proc.devRef .tc main_arg10) :=
  (StableHlo.after_of_forall_not_mem (b := (Proc.devRef .tc main_arg10)) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))
end Pass

variable (m : (ℓ : Loc nD τ sig) → Buf (Elt Ideal) ℓ) (ρ : Dev nD → PrngReg) (c : Dev nD)

/-! ## After the first region -/

theorem W1_main_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_main_arg1 : W1 m ρ c (Proc.devRef .tc main_arg1) = m ((c : Thread nD τ).loc main_arg1) := W1_of_ne m ρ c main_arg1 (by decide)
theorem W1_main_arg2 : W1 m ρ c (Proc.devRef .tc main_arg2) = m ((c : Thread nD τ).loc main_arg2) := W1_of_ne m ρ c main_arg2 (by decide)
theorem W1_main_arg4 : W1 m ρ c (Proc.devRef .tc main_arg4) = m ((c : Thread nD τ).loc main_arg4) := W1_of_ne m ρ c main_arg4 (by decide)
theorem W1_main_arg5 : W1 m ρ c (Proc.devRef .tc main_arg5) = m ((c : Thread nD τ).loc main_arg5) := W1_of_ne m ρ c main_arg5 (by decide)
theorem W1_main_arg6 : W1 m ρ c (Proc.devRef .tc main_arg6) = m ((c : Thread nD τ).loc main_arg6) := W1_of_ne m ρ c main_arg6 (by decide)
theorem W1_main_arg7 : W1 m ρ c (Proc.devRef .tc main_arg7) = m ((c : Thread nD τ).loc main_arg7) := W1_of_ne m ρ c main_arg7 (by decide)
theorem W1_main_arg8 : W1 m ρ c (Proc.devRef .tc main_arg8) = m ((c : Thread nD τ).loc main_arg8) := W1_of_ne m ρ c main_arg8 (by decide)
theorem W1_main_arg9 : W1 m ρ c (Proc.devRef .tc main_arg9) = m ((c : Thread nD τ).loc main_arg9) := W1_of_ne m ρ c main_arg9 (by decide)
theorem W1_main_arg10 : W1 m ρ c (Proc.devRef .tc main_arg10) = m ((c : Thread nD τ).loc main_arg10) := W1_of_ne m ρ c main_arg10 (by decide)
/-- The first region leaves X · W0 in its output array. -/
theorem W1_main_v0 : W1 m ρ c (Proc.devRef .tc main_v0) = Cert.Gcn.mmA (m ((c : Thread nD τ).loc main_arg0)) (m ((c : Thread nD τ).loc main_arg3)) :=
  (W1_arr m ρ c 2).trans (region0_value (V0 m ρ) c)

/-! ## At the second region's entry -/
theorem W3_main_arg0 : W3 m ρ c (Proc.devRef .tc main_arg0) = m ((c : Thread nD τ).loc main_arg0) := (pass1_main_arg0 (W1 m ρ c)).trans (W1_main_arg0 m ρ c)
theorem W3_main_arg1 : W3 m ρ c (Proc.devRef .tc main_arg1) = m ((c : Thread nD τ).loc main_arg1) := (pass1_main_arg1 (W1 m ρ c)).trans (W1_main_arg1 m ρ c)
theorem W3_main_arg2 : W3 m ρ c (Proc.devRef .tc main_arg2) = m ((c : Thread nD τ).loc main_arg2) := (pass1_main_arg2 (W1 m ρ c)).trans (W1_main_arg2 m ρ c)
theorem W3_main_arg5 : W3 m ρ c (Proc.devRef .tc main_arg5) = m ((c : Thread nD τ).loc main_arg5) := (pass1_main_arg5 (W1 m ρ c)).trans (W1_main_arg5 m ρ c)
theorem W3_main_arg6 : W3 m ρ c (Proc.devRef .tc main_arg6) = m ((c : Thread nD τ).loc main_arg6) := (pass1_main_arg6 (W1 m ρ c)).trans (W1_main_arg6 m ρ c)
theorem W3_main_arg7 : W3 m ρ c (Proc.devRef .tc main_arg7) = m ((c : Thread nD τ).loc main_arg7) := (pass1_main_arg7 (W1 m ρ c)).trans (W1_main_arg7 m ρ c)
theorem W3_main_arg8 : W3 m ρ c (Proc.devRef .tc main_arg8) = m ((c : Thread nD τ).loc main_arg8) := (pass1_main_arg8 (W1 m ρ c)).trans (W1_main_arg8 m ρ c)
theorem W3_main_arg9 : W3 m ρ c (Proc.devRef .tc main_arg9) = m ((c : Thread nD τ).loc main_arg9) := (pass1_main_arg9 (W1 m ρ c)).trans (W1_main_arg9 m ρ c)
theorem W3_main_arg10 : W3 m ρ c (Proc.devRef .tc main_arg10) = m ((c : Thread nD τ).loc main_arg10) := (pass1_main_arg10 (W1 m ρ c)).trans (W1_main_arg10 m ρ c)
/-- The first tower's hidden activations. -/
theorem W3_main_v58 : W3 m ρ c (Proc.devRef .tc main_v58)
    = hidden wrap (m ((c : Thread nD τ).loc main_arg0)) (m ((c : Thread nD τ).loc main_arg1)) (m ((c : Thread nD τ).loc main_arg3)) (m ((c : Thread nD τ).loc main_arg4)) := by
  refine (stretch1 (W1 m ρ c)).trans ?_
  rw [W1_main_v0, W1_main_arg1, W1_main_arg4]
  rfl

/-! ## After the second region -/
theorem W4_main_arg1 : W4 m ρ c (Proc.devRef .tc main_arg1) = m ((c : Thread nD τ).loc main_arg1) := (W4_of_ne m ρ c main_arg1 (by decide)).trans (W3_main_arg1 m ρ c)
theorem W4_main_arg2 : W4 m ρ c (Proc.devRef .tc main_arg2) = m ((c : Thread nD τ).loc main_arg2) := (W4_of_ne m ρ c main_arg2 (by decide)).trans (W3_main_arg2 m ρ c)
theorem W4_main_arg6 : W4 m ρ c (Proc.devRef .tc main_arg6) = m ((c : Thread nD τ).loc main_arg6) := (W4_of_ne m ρ c main_arg6 (by decide)).trans (W3_main_arg6 m ρ c)
theorem W4_main_arg7 : W4 m ρ c (Proc.devRef .tc main_arg7) = m ((c : Thread nD τ).loc main_arg7) := (W4_of_ne m ρ c main_arg7 (by decide)).trans (W3_main_arg7 m ρ c)
theorem W4_main_arg8 : W4 m ρ c (Proc.devRef .tc main_arg8) = m ((c : Thread nD τ).loc main_arg8) := (W4_of_ne m ρ c main_arg8 (by decide)).trans (W3_main_arg8 m ρ c)
theorem W4_main_arg9 : W4 m ρ c (Proc.devRef .tc main_arg9) = m ((c : Thread nD τ).loc main_arg9) := (W4_of_ne m ρ c main_arg9 (by decide)).trans (W3_main_arg9 m ρ c)
theorem W4_main_arg10 : W4 m ρ c (Proc.devRef .tc main_arg10) = m ((c : Thread nD τ).loc main_arg10) := (W4_of_ne m ρ c main_arg10 (by decide)).trans (W3_main_arg10 m ρ c)
theorem W4_main_v58 : W4 m ρ c (Proc.devRef .tc main_v58)
    = hidden wrap (m ((c : Thread nD τ).loc main_arg0)) (m ((c : Thread nD τ).loc main_arg1)) (m ((c : Thread nD τ).loc main_arg3)) (m ((c : Thread nD τ).loc main_arg4)) :=
  (W4_of_ne m ρ c main_v58 (by decide)).trans (W3_main_v58 m ρ c)
/-- The second region leaves X · W1 in its output array. -/
theorem W4_main_v59 : W4 m ρ c (Proc.devRef .tc main_v59) = Cert.Gcn.mmA (m ((c : Thread nD τ).loc main_arg0)) (m ((c : Thread nD τ).loc main_arg5)) := by
  refine (W4_arr m ρ c 2).trans ((region1_value (V3 m ρ) c).trans ?_)
  show Cert.Gcn.mmA (W3 m ρ c (Proc.devRef .tc main_arg0)) (W3 m ρ c (Proc.devRef .tc main_arg5)) = _
  rw [W3_main_arg0, W3_main_arg5]

/-! ## At the third region's entry -/
theorem W6_main_arg1 : W6 m ρ c (Proc.devRef .tc main_arg1) = m ((c : Thread nD τ).loc main_arg1) := (pass2_main_arg1 (W4 m ρ c)).trans (W4_main_arg1 m ρ c)
theorem W6_main_arg2 : W6 m ρ c (Proc.devRef .tc main_arg2) = m ((c : Thread nD τ).loc main_arg2) := (pass2_main_arg2 (W4 m ρ c)).trans (W4_main_arg2 m ρ c)
theorem W6_main_arg7 : W6 m ρ c (Proc.devRef .tc main_arg7) = m ((c : Thread nD τ).loc main_arg7) := (pass2_main_arg7 (W4 m ρ c)).trans (W4_main_arg7 m ρ c)
theorem W6_main_arg8 : W6 m ρ c (Proc.devRef .tc main_arg8) = m ((c : Thread nD τ).loc main_arg8) := (pass2_main_arg8 (W4 m ρ c)).trans (W4_main_arg8 m ρ c)
theorem W6_main_arg9 : W6 m ρ c (Proc.devRef .tc main_arg9) = m ((c : Thread nD τ).loc main_arg9) := (pass2_main_arg9 (W4 m ρ c)).trans (W4_main_arg9 m ρ c)
theorem W6_main_arg10 : W6 m ρ c (Proc.devRef .tc main_arg10) = m ((c : Thread nD τ).loc main_arg10) := (pass2_main_arg10 (W4 m ρ c)).trans (W4_main_arg10 m ρ c)
theorem W6_main_v58 : W6 m ρ c (Proc.devRef .tc main_v58)
    = hidden wrap (m ((c : Thread nD τ).loc main_arg0)) (m ((c : Thread nD τ).loc main_arg1)) (m ((c : Thread nD τ).loc main_arg3)) (m ((c : Thread nD τ).loc main_arg4)) :=
  (pass2_main_v58 (W4 m ρ c)).trans (W4_main_v58 m ρ c)
/-- The second tower's hidden activations. -/
theorem W6_main_v117 : W6 m ρ c (Proc.devRef .tc main_v117)
    = hidden wrap (m ((c : Thread nD τ).loc main_arg0)) (m ((c : Thread nD τ).loc main_arg2)) (m ((c : Thread nD τ).loc main_arg5)) (m ((c : Thread nD τ).loc main_arg6)) := by
  refine (stretch2 (W4 m ρ c)).trans ?_
  rw [W4_main_v59, W4_main_arg2, W4_main_arg6]
  rfl

/-! ## After the third region -/
theorem W7_main_arg1 : W7 m ρ c (Proc.devRef .tc main_arg1) = m ((c : Thread nD τ).loc main_arg1) := (W7_of_ne m ρ c main_arg1 (by decide)).trans (W6_main_arg1 m ρ c)
theorem W7_main_arg2 : W7 m ρ c (Proc.devRef .tc main_arg2) = m ((c : Thread nD τ).loc main_arg2) := (W7_of_ne m ρ c main_arg2 (by decide)).trans (W6_main_arg2 m ρ c)
theorem W7_main_arg8 : W7 m ρ c (Proc.devRef .tc main_arg8) = m ((c : Thread nD τ).loc main_arg8) := (W7_of_ne m ρ c main_arg8 (by decide)).trans (W6_main_arg8 m ρ c)
theorem W7_main_arg9 : W7 m ρ c (Proc.devRef .tc main_arg9) = m ((c : Thread nD τ).loc main_arg9) := (W7_of_ne m ρ c main_arg9 (by decide)).trans (W6_main_arg9 m ρ c)
theorem W7_main_arg10 : W7 m ρ c (Proc.devRef .tc main_arg10) = m ((c : Thread nD τ).loc main_arg10) := (W7_of_ne m ρ c main_arg10 (by decide)).trans (W6_main_arg10 m ρ c)
theorem W7_main_v117 : W7 m ρ c (Proc.devRef .tc main_v117)
    = hidden wrap (m ((c : Thread nD τ).loc main_arg0)) (m ((c : Thread nD τ).loc main_arg2)) (m ((c : Thread nD τ).loc main_arg5)) (m ((c : Thread nD τ).loc main_arg6)) :=
  (W7_of_ne m ρ c main_v117 (by decide)).trans (W6_main_v117 m ρ c)
/-- The third region leaves (hidden activations of tower 1) · W2 in its output array. -/
theorem W7_main_v118 : W7 m ρ c (Proc.devRef .tc main_v118)
    = Cert.Gcn.mmB (hidden wrap (m ((c : Thread nD τ).loc main_arg0)) (m ((c : Thread nD τ).loc main_arg1)) (m ((c : Thread nD τ).loc main_arg3)) (m ((c : Thread nD τ).loc main_arg4))) (m ((c : Thread nD τ).loc main_arg7)) := by
  refine (W7_arr m ρ c 2).trans ((region2_value (V6 m ρ) c).trans ?_)
  show Cert.Gcn.mmB (W6 m ρ c (Proc.devRef .tc main_v58)) (W6 m ρ c (Proc.devRef .tc main_arg7)) = _
  rw [W6_main_v58, W6_main_arg7]

/-! ## At the fourth region's entry -/
theorem W8_main_arg2 : W8 m ρ c (Proc.devRef .tc main_arg2) = m ((c : Thread nD τ).loc main_arg2) := (pass3_main_arg2 (W7 m ρ c)).trans (W7_main_arg2 m ρ c)
theorem W8_main_arg9 : W8 m ρ c (Proc.devRef .tc main_arg9) = m ((c : Thread nD τ).loc main_arg9) := (pass3_main_arg9 (W7 m ρ c)).trans (W7_main_arg9 m ρ c)
theorem W8_main_arg10 : W8 m ρ c (Proc.devRef .tc main_arg10) = m ((c : Thread nD τ).loc main_arg10) := (pass3_main_arg10 (W7 m ρ c)).trans (W7_main_arg10 m ρ c)
theorem W8_main_v117 : W8 m ρ c (Proc.devRef .tc main_v117)
    = hidden wrap (m ((c : Thread nD τ).loc main_arg0)) (m ((c : Thread nD τ).loc main_arg2)) (m ((c : Thread nD τ).loc main_arg5)) (m ((c : Thread nD τ).loc main_arg6)) :=
  (pass3_main_v117 (W7 m ρ c)).trans (W7_main_v117 m ρ c)
/-- The first tower's output. -/
theorem W8_main_v175 : W8 m ρ c (Proc.devRef .tc main_v175)
    = tower wrap (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  refine (stretch3 (W7 m ρ c)).trans ?_
  rw [W7_main_v118, W7_main_arg1, W7_main_arg8]
  rfl

/-! ## After the fourth region, and the return -/

theorem W9_main_arg2 : W9 m ρ c (Proc.devRef .tc main_arg2) = m ((c : Thread nD τ).loc main_arg2) := (W9_of_ne m ρ c main_arg2 (by decide)).trans (W8_main_arg2 m ρ c)
theorem W9_main_arg10 : W9 m ρ c (Proc.devRef .tc main_arg10) = m ((c : Thread nD τ).loc main_arg10) := (W9_of_ne m ρ c main_arg10 (by decide)).trans (W8_main_arg10 m ρ c)
theorem W9_main_v175 : W9 m ρ c (Proc.devRef .tc main_v175)
    = tower wrap (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) :=
  (W9_of_ne m ρ c main_v175 (by decide)).trans (W8_main_v175 m ρ c)
/-- The fourth region leaves (hidden activations of tower 2) · W3 in its output array. -/
theorem W9_main_v176 : W9 m ρ c (Proc.devRef .tc main_v176)
    = Cert.Gcn.mmB (hidden wrap (m ((c : Thread nD τ).loc main_arg0)) (m ((c : Thread nD τ).loc main_arg2)) (m ((c : Thread nD τ).loc main_arg5)) (m ((c : Thread nD τ).loc main_arg6))) (m ((c : Thread nD τ).loc main_arg9)) := by
  refine (W9_arr m ρ c 2).trans ((region3_value (V8 m ρ) c).trans ?_)
  show Cert.Gcn.mmB (W8 m ρ c (Proc.devRef .tc main_v117)) (W8 m ρ c (Proc.devRef .tc main_arg9)) = _
  rw [W8_main_v117, W8_main_arg9]

/-- THE RETURNED ARRAY: the network function of the argument arrays, the scatters' destination indices read
    Python-style. -/
theorem W10_main_v234 : W10 m ρ c (Proc.devRef .tc main_v234)
    = net wrap (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  refine (stretch4 (W9 m ρ c)).trans ?_
  rw [W9_main_v175, W9_main_v176, W9_main_arg2, W9_main_arg10]
  rfl

end Cert.KernelIdeal.Fold

end
-- ==== Proof.SpecLaws.lean ====
/-
  The layer functions depend on the scatter's index map only through its value at the destination row.

  Two index maps that agree on an edge list's destination row give the same layer, hence the same tower and the same
  network when they agree on both edge lists' destination rows. This is how "every destination is non-negative"
  (where reading an index Python-style changes nothing) identifies the two programs' scatters.
-/
import proofs.«141173_j89472758710374_1_alg».proof.Proof.Spec

noncomputable section

namespace Cert.KernelIdeal.Spec

open Idealize.ShloMosaic Cert.KernelIdeal Cert.KernelIdeal.Gen

variable {F : FTy → Type} [FloatOps F]

theorem conv256_congr (sc sc' : IVec S800000 32 → IVec S800000 32) (h : FVec F S50000x256 .f32) (e : IVec S2x800000 32)
    (b : FVec F S256 .f32) (hs : sc (dstOf e) = sc' (dstOf e)) : conv256 sc h e b = conv256 sc' h e b := by
  unfold conv256
  rw [hs]

theorem conv128_congr (sc sc' : IVec S800000 32 → IVec S800000 32) (h : FVec F S50000x128 .f32) (e : IVec S2x800000 32)
    (b : FVec F S128 .f32) (hs : sc (dstOf e) = sc' (dstOf e)) : conv128 sc h e b = conv128 sc' h e b := by
  unfold conv128
  rw [hs]

theorem tower_congr (sc sc' : IVec S800000 32 → IVec S800000 32) (x : FVec Ideal S50000x128 .f32) (e : IVec S2x800000 32)
    (w : FVec Ideal S128x256 .f32) (b : FVec Ideal S256 .f32) (w' : FVec Ideal S256x128 .f32) (b' : FVec Ideal S128 .f32)
    (hs : sc (dstOf e) = sc' (dstOf e)) : tower sc x e w b w' b' = tower sc' x e w b w' b' := by
  unfold tower hidden
  rw [conv256_congr sc sc' _ e b hs, conv128_congr sc sc' _ e b' hs]

/-- Index maps that agree on both edge lists' destination rows give the same network. -/
theorem net_congr (sc sc' : IVec S800000 32 → IVec S800000 32) (x : FVec Ideal S50000x128 .f32) (e1 e2 : IVec S2x800000 32)
    (w0 : FVec Ideal S128x256 .f32) (b0 : FVec Ideal S256 .f32) (w1 : FVec Ideal S128x256 .f32) (b1 : FVec Ideal S256 .f32)
    (w2 : FVec Ideal S256x128 .f32) (b2 : FVec Ideal S128 .f32) (w3 : FVec Ideal S256x128 .f32) (b3 : FVec Ideal S128 .f32)
    (h1 : sc (dstOf e1) = sc' (dstOf e1)) (h2 : sc (dstOf e2) = sc' (dstOf e2)) :
    net sc x e1 e2 w0 b0 w1 b1 w2 b2 w3 b3 = net sc' x e1 e2 w0 b0 w1 b1 w2 b2 w3 b3 := by
  unfold net
  rw [tower_congr sc sc' x e1 w0 b0 w2 b2 h1, tower_congr sc sc' x e2 w1 b1 w3 b3 h2]

end Cert.KernelIdeal.Spec

end
-- ==== Proof.RefNet.lean ====
/-
  The reference program computes the two-tower graph-convolution network.

  The reference is a straight-line program of 239 array operations. Read one operation at a time it is: a matrix
  product X · W, a graph-convolution layer over it (degree count by scatter-add, dinv = deg^(-1/2), edge weights
  norm = dinv[src] · dinv[dst], aggregation by scatter-add, self term h · dinv², bias), a rectifier, a second matrix
  product and a second layer; this twice, once per edge list, and the sum of the two results. This file identifies
  each group of operations with the corresponding named function of the layer specification, where the scatter's
  index map is the identity (the reference scatters with the destination index as given), and each matrix product
  with the plain sum over the contracted axis.

  The program's operations come in the order: first layer of tower 1 (operations 0–48), first layer of tower 2
  (49–97), second layer of tower 1 (98–145), second layer of tower 2 (146–193), the final sum (194).
-/
import proofs.«141173_j89472758710374_1_alg».proof.Proof.Gen.ReferenceIdeal.Read
import proofs.«141173_j89472758710374_1_alg».proof.Proof.Spec

noncomputable section

namespace Cert.ReferenceIdeal.RefNet

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-! ## The matrix products

A product's element (r, q) is read by the generated module as a sum over k of the left operand at an index built
from (r, k) times the right operand at an index built from (k, q); those indices are the pairs (r, k) and (k, q)
themselves, coordinate by coordinate. -/

/-- The first-layer product of tower 1 is the plain sum over the 128 input features. -/
theorem v0_eq (x0 : (⟨S50000x128, .f32⟩ : BufTy).Contents (Elt Ideal)) (x3 : (⟨S128x256, .f32⟩ : BufTy).Contents (Elt Ideal)) :
    val_main_v0 (F := Ideal) x0 x3 = Cert.Gcn.mmA x0 x3 := by
  funext i
  rw [val_main_v0_apply]
  show _ = ∑ k : Fin 128, x0 (ix2 (⟨(i 0).val, idx2_lt0 i⟩ : Fin 50000) k) * x3 (ix2 k (⟨(i 1).val, idx2_lt1 i⟩ : Fin 256))
  refine Finset.sum_congr rfl fun k _ => ?_
  have el : lidx_main_v0 i k = ix2 (⟨(i 0).val, idx2_lt0 i⟩ : Fin 50000) k := funext fun a => by
    match a with
    | ⟨0, _⟩ => rfl
    | ⟨1, _⟩ => rfl
  have er : ridx_main_v0 i k = ix2 k (⟨(i 1).val, idx2_lt1 i⟩ : Fin 256) := funext fun a => by
    match a with
    | ⟨0, _⟩ => rfl
    | ⟨1, _⟩ => rfl
  rw [el, er]

/-- The first-layer product of tower 2 is the plain sum over the 128 input features. -/
theorem v49_eq (x0 : (⟨S50000x128, .f32⟩ : BufTy).Contents (Elt Ideal)) (x5 : (⟨S128x256, .f32⟩ : BufTy).Contents (Elt Ideal)) :
    val_main_v49 (F := Ideal) x0 x5 = Cert.Gcn.mmA x0 x5 := by
  funext i
  rw [val_main_v49_apply]
  show _ = ∑ k : Fin 128, x0 (ix2 (⟨(i 0).val, idx2_lt0 i⟩ : Fin 50000) k) * x5 (ix2 k (⟨(i 1).val, idx2_lt1 i⟩ : Fin 256))
  refine Finset.sum_congr rfl fun k _ => ?_
  have el : lidx_main_v49 i k = ix2 (⟨(i 0).val, idx2_lt0 i⟩ : Fin 50000) k := funext fun a => by
    match a with
    | ⟨0, _⟩ => rfl
    | ⟨1, _⟩ => rfl
  have er : ridx_main_v49 i k = ix2 k (⟨(i 1).val, idx2_lt1 i⟩ : Fin 256) := funext fun a => by
    match a with
    | ⟨0, _⟩ => rfl
    | ⟨1, _⟩ => rfl
  rw [el, er]

/-- The second-layer product of tower 1 is the plain sum over the 256 hidden features. -/
theorem v98_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x7 : (⟨S256x128, .f32⟩ : BufTy).Contents (Elt Ideal)) :
    val_main_v98 (F := Ideal) x0 x1 x3 x4 x7 = Cert.Gcn.mmB (val_main_v48 (F := Ideal) x0 x1 x3 x4) x7 := by
  funext i
  rw [val_main_v98_apply]
  generalize val_main_v48 (F := Ideal) x0 x1 x3 x4 = y
  show _ = ∑ k : Fin 256, y (ix2 (⟨(i 0).val, idx2_lt0 i⟩ : Fin 50000) k) * x7 (ix2 k (⟨(i 1).val, idx2_lt1 i⟩ : Fin 128))
  refine Finset.sum_congr rfl fun k _ => ?_
  have el : lidx_main_v98 i k = ix2 (⟨(i 0).val, idx2_lt0 i⟩ : Fin 50000) k := funext fun a => by
    match a with
    | ⟨0, _⟩ => rfl
    | ⟨1, _⟩ => rfl
  have er : ridx_main_v98 i k = ix2 k (⟨(i 1).val, idx2_lt1 i⟩ : Fin 128) := funext fun a => by
    match a with
    | ⟨0, _⟩ => rfl
    | ⟨1, _⟩ => rfl
  rw [el, er]

/-- The second-layer product of tower 2 is the plain sum over the 256 hidden features. -/
theorem v146_eq (x0 : (⟨S50000x128, .f32⟩ : BufTy).Contents (Elt Ideal)) (x2 : (⟨S2x800000, .i32⟩ : BufTy).Contents (Elt Ideal)) (x5 : (⟨S128x256, .f32⟩ : BufTy).Contents (Elt Ideal)) (x6 : (⟨S256, .f32⟩ : BufTy).Contents (Elt Ideal)) (x9 : (⟨S256x128, .f32⟩ : BufTy).Contents (Elt Ideal)) :
    val_main_v146 (F := Ideal) x0 x2 x5 x6 x9 = Cert.Gcn.mmB (val_main_v97 (F := Ideal) x0 x2 x5 x6) x9 := by
  funext i
  rw [val_main_v146_apply]
  generalize val_main_v97 (F := Ideal) x0 x2 x5 x6 = y
  show _ = ∑ k : Fin 256, y (ix2 (⟨(i 0).val, idx2_lt0 i⟩ : Fin 50000) k) * x9 (ix2 k (⟨(i 1).val, idx2_lt1 i⟩ : Fin 128))
  refine Finset.sum_congr rfl fun k _ => ?_
  have el : lidx_main_v146 i k = ix2 (⟨(i 0).val, idx2_lt0 i⟩ : Fin 50000) k := funext fun a => by
    match a with
    | ⟨0, _⟩ => rfl
    | ⟨1, _⟩ => rfl
  have er : ridx_main_v146 i k = ix2 k (⟨(i 1).val, idx2_lt1 i⟩ : Fin 128) := funext fun a => by
    match a with
    | ⟨0, _⟩ => rfl
    | ⟨1, _⟩ => rfl
  rw [el, er]

/-! ## The layers, over the product they start from

Each of these is an unfolding: the operations after a product, composed, are literally the layer of the
specification applied to that product, with the scatter index read as given. They hold for every float model. -/

section
variable {F : FTy → Type} [FloatOps F]

/-- Operations 1–48: a width-256 layer over the first product of tower 1, then the rectifier. -/
theorem v48_eq_layer (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) :
    val_main_v48 (F := F) x0 x1 x3 x4
      = Cert.KernelIdeal.Spec.relu256 (Cert.KernelIdeal.Spec.conv256 id (val_main_v0 (F := F) x0 x3) x1 x4) := rfl

/-- Operations 50–97: a width-256 layer over the first product of tower 2, then the rectifier. -/
theorem v97_eq_layer (x0 : (⟨S50000x128, .f32⟩ : BufTy).Contents (Elt F)) (x2 : (⟨S2x800000, .i32⟩ : BufTy).Contents (Elt F)) (x5 : (⟨S128x256, .f32⟩ : BufTy).Contents (Elt F)) (x6 : (⟨S256, .f32⟩ : BufTy).Contents (Elt F)) :
    val_main_v97 (F := F) x0 x2 x5 x6
      = Cert.KernelIdeal.Spec.relu256 (Cert.KernelIdeal.Spec.conv256 id (val_main_v49 (F := F) x0 x5) x2 x6) := rfl

/-- Operations 99–145: a width-128 layer over the second product of tower 1. -/
theorem v145_eq_layer (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) (x7 : (⟨S256x128, .f32⟩ : BufTy).Contents (Elt F)) (x8 : (⟨S128, .f32⟩ : BufTy).Contents (Elt F)) :
    val_main_v145 (F := F) x0 x1 x3 x4 x7 x8
      = Cert.KernelIdeal.Spec.conv128 id (val_main_v98 (F := F) x0 x1 x3 x4 x7) x1 x8 := rfl

/-- Operations 147–193: a width-128 layer over the second product of tower 2. -/
theorem v193_eq_layer (x0 : (⟨S50000x128, .f32⟩ : BufTy).Contents (Elt F)) (x2 : (⟨S2x800000, .i32⟩ : BufTy).Contents (Elt F)) (x5 : (⟨S128x256, .f32⟩ : BufTy).Contents (Elt F)) (x6 : (⟨S256, .f32⟩ : BufTy).Contents (Elt F)) (x9 : (⟨S256x128, .f32⟩ : BufTy).Contents (Elt F)) (x10 : (⟨S128, .f32⟩ : BufTy).Contents (Elt F)) :
    val_main_v193 (F := F) x0 x2 x5 x6 x9 x10
      = Cert.KernelIdeal.Spec.conv128 id (val_main_v146 (F := F) x0 x2 x5 x6 x9) x2 x10 := rfl

end

/-! ## The towers and the network -/

/-- The hidden activations of tower 1. -/
theorem v48_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) :
    val_main_v48 (F := Ideal) x0 x1 x3 x4 = Cert.KernelIdeal.Spec.hidden id x0 x1 x3 x4 :=
  by
  rw [v48_eq_layer, v0_eq]
  rfl

/-- The hidden activations of tower 2. -/
theorem v97_eq (x0 : (⟨S50000x128, .f32⟩ : BufTy).Contents (Elt Ideal)) (x2 : (⟨S2x800000, .i32⟩ : BufTy).Contents (Elt Ideal)) (x5 : (⟨S128x256, .f32⟩ : BufTy).Contents (Elt Ideal)) (x6 : (⟨S256, .f32⟩ : BufTy).Contents (Elt Ideal)) :
    val_main_v97 (F := Ideal) x0 x2 x5 x6 = Cert.KernelIdeal.Spec.hidden id x0 x2 x5 x6 :=
  by
  rw [v97_eq_layer, v49_eq]
  rfl

/-- Tower 1: the second layer over (hidden activations) · W2. -/
theorem v145_eq (x0 : (⟨S50000x128, .f32⟩ : BufTy).Contents (Elt Ideal)) (x1 : (⟨S2x800000, .i32⟩ : BufTy).Contents (Elt Ideal)) (x3 : (⟨S128x256, .f32⟩ : BufTy).Contents (Elt Ideal)) (x4 : (⟨S256, .f32⟩ : BufTy).Contents (Elt Ideal)) (x7 : (⟨S256x128, .f32⟩ : BufTy).Contents (Elt Ideal)) (x8 : (⟨S128, .f32⟩ : BufTy).Contents (Elt Ideal)) :
    val_main_v145 (F := Ideal) x0 x1 x3 x4 x7 x8 = Cert.KernelIdeal.Spec.tower id x0 x1 x3 x4 x7 x8 :=
  by
  rw [v145_eq_layer, v98_eq, v48_eq]
  rfl

/-- Tower 2: the second layer over (hidden activations) · W3. -/
theorem v193_eq (x0 : (⟨S50000x128, .f32⟩ : BufTy).Contents (Elt Ideal)) (x2 : (⟨S2x800000, .i32⟩ : BufTy).Contents (Elt Ideal)) (x5 : (⟨S128x256, .f32⟩ : BufTy).Contents (Elt Ideal)) (x6 : (⟨S256, .f32⟩ : BufTy).Contents (Elt Ideal)) (x9 : (⟨S256x128, .f32⟩ : BufTy).Contents (Elt Ideal)) (x10 : (⟨S128, .f32⟩ : BufTy).Contents (Elt Ideal)) :
    val_main_v193 (F := Ideal) x0 x2 x5 x6 x9 x10 = Cert.KernelIdeal.Spec.tower id x0 x2 x5 x6 x9 x10 :=
  by
  rw [v193_eq_layer, v146_eq, v97_eq]
  rfl

/-- The last operation adds the two towers: the whole program is the network. -/
theorem v194_eq (x0 : (⟨S50000x128, .f32⟩ : BufTy).Contents (Elt Ideal)) (x1 x2 : (⟨S2x800000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256, .f32⟩ : BufTy).Contents (Elt Ideal))
    (x7 : (⟨S256x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) :
    val_main_v194 (F := Ideal) x0 x1 x2 x3 x4 x5 x6 x7 x8 x9 x10
      = Cert.KernelIdeal.Spec.net id x0 x1 x2 x3 x4 x5 x6 x7 x8 x9 x10 :=
  by
  unfold val_main_v194
  rw [v145_eq, v193_eq]
  rfl

/-- The reference run's result is the network of the specification, scattering with the destination as given,
    applied to the eleven arguments of the program as the run finds them in memory. -/
theorem res_eq_net (m : (ℓ : Loc nD τ sig) → Buf (Elt Ideal) ℓ) (c : Dev nD) :
    Cert.ReferenceIdeal.Value.res_main_v194 (F := Ideal) m c
      = Cert.KernelIdeal.Spec.net id (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  by
  rw [val_main_v194_eq, v194_eq]

end Cert.ReferenceIdeal.RefNet

end
-- ==== Proof.PreIndex.lean ====
/-
  The precondition's last two conjuncts, read back: every destination index of the two edge lists is non-negative, so
  reading it Python-style changes nothing.

  The precondition is one chain of conjunctions, each link a reduction by `and` of an array of truth values to a single
  one. Its value being true says every link is true; the last two links are the reductions of "row 1 of the edge list,
  compared ≥ 0 (signed) with the all-zero array", one for each edge list. A reduction by `and` over all axes that is
  true had a true at every index, so every entry x of row 1 satisfies 0 ≤ x as a signed integer.

  Reading an index d Python-style replaces it by d + 50000 exactly where d < 0 (signed); where 0 ≤ d nothing is
  replaced. Hence `wrap d = d` for the destination rows of both edge lists.

  The precondition spells "row 1, flattened" over its own shape constants and the specification over the kernel's; the
  shapes are the same literals and the side conditions are proofs, so the two spellings are the same function by
  unfolding.
-/
import proofs.«141173_j89472758710374_1_alg».proof.Defs
import proofs.«141173_j89472758710374_1_alg».proof.Proof.Gen.Pre_finite_inputs
import proofs.«141173_j89472758710374_1_alg».proof.Proof.Spec
import Idealize.ShloMosaic.Lib.ReduceAll
import Idealize.ShloMosaic.Lib.ValueIdx

noncomputable section

namespace Cert.KernelIdeal.PreIndex

open Idealize.ShloMosaic Idealize.SL.Sem

/-- The rank-0 shape has one index. -/
instance subsingleton_idx_S_ : Subsingleton Cert.Pre_finite_inputs.S_.Idx := ⟨fun a b => funext fun d => d.elim0⟩

/-! ### The two ends on one word -/

/-- A word that tests ≥ 0 (signed) is a non-negative integer. -/
theorem nonneg_of_sge (x : BitVec 32) (h : IntOp.cmpi .sge x 0#32 = 1#1) : (0 : Int) ≤ x.toInt := by
  have hle : (0#32 : BitVec 32).toInt ≤ x.toInt := IntOp.cmpi_sge.1 h
  have h0 : (0#32 : BitVec 32).toInt = 0 := by decide
  omega

/-- An index array whose entries are all non-negative is unchanged by the Python-style reading: at each position the
    test d < 0 fails, so the selection keeps d. -/
theorem wrap_eq_self (d : IVec Cert.KernelIdeal.S800000 32) (h : ∀ j, (0 : Int) ≤ (d j).toInt) :
    Cert.KernelIdeal.Spec.wrap d = d := by
  funext j
  show Scalar.select (IntOp.cmpi .slt (d j) 0#32) (IntOp.addi (d j) 50000#32) (d j) = d j
  refine if_neg fun hc => ?_
  have hlt : (d j).toInt < (0#32 : BitVec 32).toInt := IntOp.cmpi_slt.1 hc
  have h0 : (0#32 : BitVec 32).toInt = 0 := by decide
  have := h j
  omega

/-! ### The precondition, read back -/

section Decode

open Cert.Pre_finite_inputs Cert.Pre_finite_inputs.Gen

variable {F : FTy → Type} [FloatOps F]

/-- Row 1 of an edge list, flattened, as the precondition spells it. -/
def preDst (e : IVec Cert.Pre_finite_inputs.S2x800000 32) : IVec Cert.Pre_finite_inputs.S800000 32 :=
  shapeCast Cert.Pre_finite_inputs.S800000
    (extractStridedSlice Cert.Pre_finite_inputs.S1x800000 ![1, 0] e Cert.Pre_finite_inputs.Gen.slices_S2x800000_S1x800000_1_0)
    Cert.Pre_finite_inputs.Gen.shapeCasts_S1x800000_S800000

/-- The chain's last link: if it is true, so is the chain before it, and every entry of the array it tests is ≥ 0. -/
theorem part3_dec (v49 : IVec Cert.Pre_finite_inputs.S_ 1) (v51 : IVec Cert.Pre_finite_inputs.S800000 32)
    (h : fn_part3 (F := F) v49 v51 ValueIdx.ix0 = 1#1) :
    v49 ValueIdx.ix0 = 1#1 ∧ ∀ j, IntOp.cmpi .sge (v51 j) 0#32 = 1#1 := by
  obtain ⟨h1, h2⟩ := IntOp.andi_eq_one.1 h
  exact ⟨h1, fun j => Host.reduce_andi_all _ _ _ _ _ h2 j⟩

/-- The chain's last two links: every entry of row 1 of either edge list is ≥ 0. -/
theorem part2_dec (a1 a2 : IVec Cert.Pre_finite_inputs.S2x800000 32) (a9 : FVec F Cert.Pre_finite_inputs.S256x128 .f32)
    (a10 : FVec F Cert.Pre_finite_inputs.S128 .f32) (v33 : IVec Cert.Pre_finite_inputs.S_ 1)
    (h : fn_part2 (F := F) a1 a2 a9 a10 v33 ValueIdx.ix0 = 1#1) :
    (∀ j, IntOp.cmpi .sge (preDst a1 j) 0#32 = 1#1) ∧ (∀ j, IntOp.cmpi .sge (preDst a2 j) 0#32 = 1#1) := by
  obtain ⟨h49, h2⟩ := part3_dec (F := F) _ _ h
  obtain ⟨-, h48⟩ := IntOp.andi_eq_one.1 h49
  exact ⟨fun j => Host.reduce_andi_all _ _ _ _ _ h48 j, h2⟩

/-- The whole precondition: its earlier parts only pass the two edge lists on to the part that tests them. -/
theorem fn_dec (a0 : FVec F Cert.Pre_finite_inputs.S50000x128 .f32) (a1 a2 : IVec Cert.Pre_finite_inputs.S2x800000 32)
    (a3 : FVec F Cert.Pre_finite_inputs.S128x256 .f32) (a4 : FVec F Cert.Pre_finite_inputs.S256 .f32)
    (a5 : FVec F Cert.Pre_finite_inputs.S128x256 .f32) (a6 : FVec F Cert.Pre_finite_inputs.S256 .f32)
    (a7 : FVec F Cert.Pre_finite_inputs.S256x128 .f32) (a8 : FVec F Cert.Pre_finite_inputs.S128 .f32)
    (a9 : FVec F Cert.Pre_finite_inputs.S256x128 .f32) (a10 : FVec F Cert.Pre_finite_inputs.S128 .f32)
    (h : fn (F := F) a0 a1 a2 a3 a4 a5 a6 a7 a8 a9 a10 ValueIdx.ix0 = 1#1) :
    (∀ j, IntOp.cmpi .sge (preDst a1 j) 0#32 = 1#1) ∧ (∀ j, IntOp.cmpi .sge (preDst a2 j) 0#32 = 1#1) :=
  part2_dec (F := F) a1 a2 a9 a10 _ h

end Decode

/-! ### The destinations of the launch memory's edge lists -/

section Launch

open Cert.KernelIdeal

variable (m : (ℓ : Loc Cert.KernelIdeal.nD Cert.KernelIdeal.τ Cert.KernelIdeal.sig) → Buf (Elt Ideal) ℓ)

/-- Under the precondition every destination index of either edge list is non-negative. -/
theorem dst_nonneg (hpre : Cert.Pre_KernelIdeal m) (c : Dev Cert.KernelIdeal.nD) :
    (∀ j, (0 : Int) ≤ (Cert.KernelIdeal.Spec.dstOf (m ((c.tc : Thread Cert.KernelIdeal.nD Cert.KernelIdeal.τ).loc Cert.KernelIdeal.main_arg1)) j).toInt)
    ∧ (∀ j, (0 : Int) ≤ (Cert.KernelIdeal.Spec.dstOf (m ((c.tc : Thread Cert.KernelIdeal.nD Cert.KernelIdeal.τ).loc Cert.KernelIdeal.main_arg2)) j).toInt) := by
  obtain ⟨h1, h2⟩ := fn_dec (F := Ideal) _ _ _ _ _ _ _ _ _ _ _ (congrFun (hpre c) ValueIdx.ix0)
  exact ⟨fun j => nonneg_of_sge _ (h1 j), fun j => nonneg_of_sge _ (h2 j)⟩

/-- Under the precondition the Python-style reading leaves both edge lists' destinations as they are. -/
theorem wrap_dst (hpre : Cert.Pre_KernelIdeal m) (c : Dev Cert.KernelIdeal.nD) :
    Cert.KernelIdeal.Spec.wrap (Cert.KernelIdeal.Spec.dstOf (m ((c.tc : Thread Cert.KernelIdeal.nD Cert.KernelIdeal.τ).loc Cert.KernelIdeal.main_arg1)))
        = Cert.KernelIdeal.Spec.dstOf (m ((c.tc : Thread Cert.KernelIdeal.nD Cert.KernelIdeal.τ).loc Cert.KernelIdeal.main_arg1))
    ∧ Cert.KernelIdeal.Spec.wrap (Cert.KernelIdeal.Spec.dstOf (m ((c.tc : Thread Cert.KernelIdeal.nD Cert.KernelIdeal.τ).loc Cert.KernelIdeal.main_arg2)))
        = Cert.KernelIdeal.Spec.dstOf (m ((c.tc : Thread Cert.KernelIdeal.nD Cert.KernelIdeal.τ).loc Cert.KernelIdeal.main_arg2)) :=
  ⟨wrap_eq_self _ (dst_nonneg m hpre c).1, wrap_eq_self _ (dst_nonneg m hpre c).2⟩

end Launch

end Cert.KernelIdeal.PreIndex

end
-- ==== Proof.lean ====
/-
  Two towers of two graph-convolution layers, summed: the Pallas program against its jnp reference, over the extended reals.

  Both programs compute, for each of two edge lists e and weight pairs (W, b), (W', b'),

      conv(relu(conv(X · W, e, b)) · W', e, b'),     conv(h, e, b)[i] = Σ_{j : dst j = i} h[src j] · norm[j] + h[i] · dinv[i]² + b,

  with deg = 1 + in-degree, dinv = deg^(-1/2), norm[j] = dinv[src j] · dinv[dst j], and add the two towers. They differ in two
  places. (1) The kernel computes the four products X · W on the matrix unit, row block by row block, rounding the
  operands to bf16 first; over the extended reals a change of format is the identity and a block product into a zero
  accumulator is the plain sum Σ_k X[r, k] · W[k, q], so each region's output array is the reference's product
  (Region0–3, MatSpec). (2) The kernel scatters (degree count and message aggregation) with the destination index read
  Python-style — a negative index d stands for d + 50000 — while the reference scatters with d as given, dropping a
  negative d. Under the stated domain "every destination index is non-negative" the two readings coincide
  (PreIndex), and the layer depends on the scatter's index map only through its value at the destination row
  (SpecLaws). The kernel's run through its ten segments (RunResult) leaves the network function of the arguments in the
  returned array (Fold, Stretch); the reference's generated run leaves the same function (RefNet).
-/
import proofs.«141173_j89472758710374_1_alg».proof.Defs
import proofs.«141173_j89472758710374_1_alg».proof.Proof.Gen.Kernel
import proofs.«141173_j89472758710374_1_alg».proof.Proof.Gen.Kernel.Skeleton
import proofs.«141173_j89472758710374_1_alg».proof.Proof.Gen.Kernel.Launch
import proofs.«141173_j89472758710374_1_alg».proof.Proof.Gen.Kernel.Points
import proofs.«141173_j89472758710374_1_alg».proof.Proof.Gen.Kernel.Frame
import proofs.«141173_j89472758710374_1_alg».proof.Proof.Gen.KernelIdeal
import proofs.«141173_j89472758710374_1_alg».proof.Proof.Gen.KernelIdeal.Skeleton
import proofs.«141173_j89472758710374_1_alg».proof.Proof.Gen.KernelIdeal.Launch
import proofs.«141173_j89472758710374_1_alg».proof.Proof.Gen.KernelIdeal.Points
import proofs.«141173_j89472758710374_1_alg».proof.Proof.Gen.KernelIdeal.Frame
import proofs.«141173_j89472758710374_1_alg».proof.Proof.Gen.ReferenceIdeal
import proofs.«141173_j89472758710374_1_alg».proof.Proof.Gen.ReferenceIdeal.Run
import proofs.«141173_j89472758710374_1_alg».proof.Proof.Gen.ReferenceIdeal.Read
import proofs.«141173_j89472758710374_1_alg».proof.Proof.Gen.Pre_finite_inputs
import proofs.«141173_j89472758710374_1_alg».proof.Proof.RunResult
import proofs.«141173_j89472758710374_1_alg».proof.Proof.Fold
import proofs.«141173_j89472758710374_1_alg».proof.Proof.SpecLaws
import proofs.«141173_j89472758710374_1_alg».proof.Proof.RefNet
import proofs.«141173_j89472758710374_1_alg».proof.Proof.PreIndex
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on the arguments, with every destination index non-negative, both programs end with the
    network function (scattering with the destinations as given) of the arguments in their result arrays. -/
theorem algebraic : Cert.algebraic_KernelIdeal_ReferenceIdeal := by
  intro m ρ m' ρ' hpre hagree
  refine ⟨fun c => Cert.KernelIdeal.Spec.net id (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.RunResult.run_result (F := Ideal) m ρ)
    obtain ⟨h1, h2⟩ := Cert.KernelIdeal.PreIndex.wrap_dst m hpre c
    exact (Cert.KernelIdeal.Fold.W10_main_v234 m ρ c).trans
      (Cert.KernelIdeal.Spec.net_congr Cert.KernelIdeal.Spec.wrap id _ _ _ _ _ _ _ _ _ _ _ h1 h2)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefNet.res_eq_net, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
